-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x64 .f32) (main_arg4 : FVec F S64 .f32) (main_arg5 : FVec F S64x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x256 : Shape := ⟨2, ![10000, 256]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S5000x64 : Shape := ⟨2, ![5000, 64]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 89
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x40, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x40, .f32⟩
  | .hbm, ⟨80, _⟩ => ⟨S1700000x1, .f32⟩
  | .hbm, ⟨81, _⟩ => ⟨S1700000x40, .f32⟩
  | .hbm, ⟨82, _⟩ => ⟨S1700000x40, .f32⟩
  | .hbm, ⟨83, _⟩ => ⟨S_, .f32⟩
  | .hbm, ⟨84, _⟩ => ⟨S100000x40, .f32⟩
  | .hbm, ⟨85, _⟩ => ⟨S1700000x1, .i32⟩
  | .hbm, ⟨86, _⟩ => ⟨S100000x40, .f32⟩
  | .hbm, ⟨87, _⟩ => ⟨S1x40, .f32⟩
  | .hbm, ⟨88, _⟩ => ⟨S100000x40, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x64_S10000x64_1_0_0_1_n_n_wf : DotDims.WF S10000x256 S256x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 110
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x40, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x40, .f32⟩
  | .hbm, ⟨85, _⟩ => ⟨S1700000x1, .f32⟩
  | .hbm, ⟨86, _⟩ => ⟨S1700000x40, .f32⟩
  | .hbm, ⟨87, _⟩ => ⟨S1700000x40, .f32⟩
  | .hbm, ⟨88, _⟩ => ⟨S_, .f32⟩
  | .hbm, ⟨89, _⟩ => ⟨S100000x40, .f32⟩
  | .hbm, ⟨90, _⟩ => ⟨S1700000x1, .i32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x40, .f32⟩
  | .hbm, ⟨102, _⟩ => ⟨S100000x40, .f32⟩
  | .hbm, ⟨103, _⟩ => ⟨S100000x40, .f32⟩
  | .hbm, ⟨104, _⟩ => ⟨S_, .f32⟩
  | .hbm, ⟨105, _⟩ => ⟨S100000, .f32⟩
  | .hbm, ⟨106, _⟩ => ⟨S100000x1, .f32⟩
  | .hbm, ⟨107, _⟩ => ⟨S100000x1, .f32⟩
  | .hbm, ⟨108, _⟩ => ⟨S100000x40, .f32⟩
  | .hbm, ⟨109, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_call2_cst_0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_cst_1 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_v69 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.HostChain.lean ====
/-
  The host side both programs share, as functions of the edge list and the edge weights. The 1600000 edges are
  extended by one self-loop per node (weight 1), giving 1700000 entries: their source nodes, their target nodes and their
  weights. The degree of a node is the sum of the weights of the entries whose target it is; the normalisation of an
  entry is (1/√deg) at its source, times its weight, times (1/√deg) at its target, where 1/√deg is taken of
  max(deg, a tiny positive number) and replaced by 0 where the degree is not positive. A propagation step sends a
  node-feature array h to the array whose row at a node is the sum, over the entries whose target is that node, of the
  normalisation times the row of h at the entry's source (a negative source index counted from the end). Both programs
  apply exactly these operations; only the dense stages between them are arranged differently.
-/
import proofs.«122044_j11776800326009_2_alg».proof.ReferenceIdeal

noncomputable section

namespace Cert.HostChain

open Cert.ReferenceIdeal Idealize.ShloMosaic

variable {F : FTy → Type} [FloatOps F] [Facts₀]

open Facts₀

/-- Row `k` of the edge list, followed by the nodes themselves (the self-loops). -/
def ends0 (x1 : IVec S2x1600000 32) : IVec S1700000 32 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

def ends1 (x1 : IVec S2x1600000 32) : IVec S1700000 32 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- The edge weights followed by a weight 1 per self-loop. -/
def wts (x2 : FVec F S1600000 .f32) : FVec F S1700000 .f32 :=
  concatenate S1700000 0 [⟨S1600000, x2⟩, ⟨S100000, (broadcastInDim S100000 ![] bcast_S_S100000 (constant S_ .f32 0x3F800000#32))⟩] concatenates_S1600000_S100000_S1700000_d0

/-- A negative node index counts from the end. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- A list of node indices as a column of start indices. -/
def col (v : IVec S1700000 32) : IVec S1700000x1 32 :=
  broadcastInDim S1700000x1 ![0] bcast_S1700000_S1700000x1_0 v

/-- The degree of each node: the sum of the weights of the entries whose target it is. -/
def deg (x1 : IVec S2x1600000 32) (x2 : FVec F S1600000 .f32) : FVec F S100000 .f32 :=
  Host.scatterAdd scatter_S100000_S1700000x1_S1700000_n_0_0_1 (broadcastInDim S100000 ![] bcast_S_S100000 (constant S_ .f32 0x00000000#32)) (col (ends1 x1)) (wts x2)

/-- 1/√deg of max(deg, tiny), and 0 where the degree is not positive. -/
def dinv (x1 : IVec S2x1600000 32) (x2 : FVec F S1600000 .f32) : FVec F S100000 .f32 :=
  select (cmpf .ogt (deg x1 x2) (broadcastInDim S100000 ![] bcast_S_S100000 (constant S_ .f32 0x00000000#32)))
    (Host.rsqrt (maximumf (deg x1 x2) (broadcastInDim S100000 ![] bcast_S_S100000 (constant S_ .f32 0x0DA24260#32))))
    (broadcastInDim S100000 ![] bcast_S_S100000 (constant S_ .f32 0x00000000#32))

/-- The normalisation of each entry. -/
def norm (x1 : IVec S2x1600000 32) (x2 : FVec F S1600000 .f32) : FVec F S1700000 .f32 :=
  mulf (mulf (Host.gather gather_S100000_S1700000x1_S1700000_n_0_n_n_0_1_1 (dinv x1 x2) (col (wrap (ends0 x1)))) (wts x2))
    (Host.gather gather_S100000_S1700000x1_S1700000_n_0_n_n_0_1_1 (dinv x1 x2) (col (wrap (ends1 x1))))

/-- One propagation step on 64 features, from the entries' sources `sv`, targets `tv` and normalisations `nv`. -/
def propagate64 (sv tv : IVec S1700000 32) (nv : FVec F S1700000 .f32) (h : FVec F S100000x64 .f32) : FVec F S100000x64 .f32 :=
  Host.scatterAdd scatter_S100000x64_S1700000x1_S1700000x64_1_0_0_1 (broadcastInDim S100000x64 ![] bcast_S_S100000x64 (constant S_ .f32 0x00000000#32)) (col tv)
    (mulf (Host.gather gather_S100000x64_S1700000x1_S1700000x64_1_0_n_n_0_1_164 h (col (wrap sv)))
      (broadcastInDim S1700000x64 ![0, 1] bcast_S1700000x1_S1700000x64_0_1 (broadcastInDim S1700000x1 ![0] bcast_S1700000_S1700000x1_0 nv)))

/-- One propagation step on 40 features. -/
def propagate40 (sv tv : IVec S1700000 32) (nv : FVec F S1700000 .f32) (h : FVec F S100000x40 .f32) : FVec F S100000x40 .f32 :=
  Host.scatterAdd scatter_S100000x40_S1700000x1_S1700000x40_1_0_0_1 (broadcastInDim S100000x40 ![] bcast_S_S100000x40 (constant S_ .f32 0x00000000#32)) (col tv)
    (mulf (Host.gather gather_S100000x40_S1700000x1_S1700000x40_1_0_n_n_0_1_140 h (col (wrap sv)))
      (broadcastInDim S1700000x40 ![0, 1] bcast_S1700000x1_S1700000x40_0_1 (broadcastInDim S1700000x1 ![0] bcast_S1700000_S1700000x1_0 nv)))

/-- The two steps over the program's own edge list and weights. -/
def prop64 (x1 : IVec S2x1600000 32) (x2 : FVec F S1600000 .f32) (h : FVec F S100000x64 .f32) : FVec F S100000x64 .f32 :=
  propagate64 (ends0 x1) (ends1 x1) (norm x1 x2) h

def prop40 (x1 : IVec S2x1600000 32) (x2 : FVec F S1600000 .f32) (h : FVec F S100000x40 .f32) : FVec F S100000x40 .f32 :=
  propagate40 (ends0 x1) (ends1 x1) (norm x1 x2) h

end Cert.HostChain

end
-- ==== Proof.KHost.lean ====
/-
  What the host stretches of the idealized kernel leave in the buffers the grid launches read. Before the first launch
  the host computes, from the edge list and the edge weights, the entries' sources, targets and normalisations; no later
  operation and no launch writes those three buffers or the argument arrays, so every later boundary finds them as
  computed. Between the launches the host applies one propagation step to the previous launch's output and reshapes a
  bias vector into a row.
-/
import proofs.«122044_j11776800326009_2_alg».proof.Proof.Gen.KernelIdeal.Frame
import proofs.«122044_j11776800326009_2_alg».proof.Proof.Gen.ReferenceIdeal
import proofs.«122044_j11776800326009_2_alg».proof.Proof.HostChain
import Idealize.ShloMosaic.Lib.StableHlo.Run
import Idealize.ShloMosaic.PureOps.Ideal

set_option maxRecDepth 16384

noncomputable section

namespace Cert.KernelIdeal.HostRead

open Cert.KernelIdeal Cert.KernelIdeal.Gen Idealize.ShloMosaic Idealize.ShloMosaic.TcCoe Idealize.ShloMosaic.StableHlo Idealize.SL.Sem

/-- Contents moved to a buffer's own type and back are the contents. -/
theorem ofBuf_toBuf {Val : EltTy → Type} {T : BufTy} (x : TRef sig T) (v : T.Contents Val) : x.ofBuf (x.toBuf v) = v := by
  obtain ⟨r, h, hd, hu⟩ := x
  subst h
  rfl

/-- 1/√deg where the degree is positive (`pos`), and the given scalar elsewhere. -/
def dinvOf (pos : IVec Cert.ReferenceIdeal.S100000 1) (rs : FVec Ideal Cert.ReferenceIdeal.S100000 .f32)
    (z : FVec Ideal Cert.ReferenceIdeal.S_ .f32) : FVec Ideal Cert.ReferenceIdeal.S100000 .f32 :=
  select pos rs (broadcastInDim Cert.ReferenceIdeal.S100000 ![] Cert.ReferenceIdeal.Facts₀.bcast_S_S100000 z)

/-- The normalisation of each entry from the per-node factor `dv`, the sources `sv`, the targets `tv` and the weights `wv`. -/
def normOf (dv : FVec Ideal Cert.ReferenceIdeal.S100000 .f32) (sv tv : IVec Cert.ReferenceIdeal.S1700000 32)
    (wv : FVec Ideal Cert.ReferenceIdeal.S1700000 .f32) : FVec Ideal Cert.ReferenceIdeal.S1700000 .f32 :=
  mulf (mulf (Host.gather Cert.ReferenceIdeal.gather_S100000_S1700000x1_S1700000_n_0_n_n_0_1_1 dv (Cert.HostChain.col (Cert.HostChain.wrap sv))) wv)
    (Host.gather Cert.ReferenceIdeal.gather_S100000_S1700000x1_S1700000_n_0_n_n_0_1_1 dv (Cert.HostChain.col (Cert.HostChain.wrap tv)))

/-! ## The three host stretches before the first launch, each from any contents `W` -/

set_option maxHeartbeats 40000000 in
theorem first_v3 (W : Valuation τ sig (Elt Ideal)) :
    StableHlo.after hostOps0 W (Proc.devRef .tc main_v3) = Cert.HostChain.ends0 (W (Proc.devRef .tc main_arg1)) := by
  after_results_simp
  rfl

set_option maxHeartbeats 40000000 in
theorem first_v6 (W : Valuation τ sig (Elt Ideal)) :
    StableHlo.after hostOps0 W (Proc.devRef .tc main_v6) = Cert.HostChain.ends1 (W (Proc.devRef .tc main_arg1)) := by
  after_results_simp
  rfl

set_option maxHeartbeats 40000000 in
theorem first_v8 (W : Valuation τ sig (Elt Ideal)) :
    StableHlo.after hostOps0 W (Proc.devRef .tc main_v8) = Cert.HostChain.wts (F := Ideal) (W (Proc.devRef .tc main_arg2)) := by
  after_results_simp
  rfl

set_option maxHeartbeats 40000000 in
theorem first_v13 (W : Valuation τ sig (Elt Ideal)) :
    StableHlo.after hostOps0 W (Proc.devRef .tc main_v13) = cmpf .ogt (Cert.HostChain.deg (F := Ideal) (W (Proc.devRef .tc main_arg1)) (W (Proc.devRef .tc main_arg2))) (broadcastInDim S100000 ![] bcast_S_S100000 (constant (F := Ideal) S_ .f32 0x00000000#32)) := by
  after_results_simp
  rfl

set_option maxHeartbeats 40000000 in
theorem first_v16 (W : Valuation τ sig (Elt Ideal)) :
    StableHlo.after hostOps0 W (Proc.devRef .tc main_v16) = Host.rsqrt (maximumf (Cert.HostChain.deg (F := Ideal) (W (Proc.devRef .tc main_arg1)) (W (Proc.devRef .tc main_arg2))) (broadcastInDim S100000 ![] bcast_S_S100000 (constant S_ .f32 0x0DA24260#32))) := by
  after_results_simp
  rfl

set_option maxHeartbeats 40000000 in
theorem first_cst3 (W : Valuation τ sig (Elt Ideal)) :
    StableHlo.after hostOps0 W (Proc.devRef .tc main_cst_3) = constant (F := Ideal) S_ .f32 0x00000000#32 := by
  after_results_simp

set_option maxHeartbeats 40000000 in
theorem first_arg0 (W : Valuation τ sig (Elt Ideal)) :
    StableHlo.after hostOps0 W (Proc.devRef .tc main_arg0) = W (Proc.devRef .tc main_arg0) := by
  after_results_simp

set_option maxHeartbeats 40000000 in
theorem first_arg3 (W : Valuation τ sig (Elt Ideal)) :
    StableHlo.after hostOps0 W (Proc.devRef .tc main_arg3) = W (Proc.devRef .tc main_arg3) := by
  after_results_simp

set_option maxHeartbeats 40000000 in
theorem first_arg4 (W : Valuation τ sig (Elt Ideal)) :
    StableHlo.after hostOps0 W (Proc.devRef .tc main_arg4) = W (Proc.devRef .tc main_arg4) := by
  after_results_simp

set_option maxHeartbeats 40000000 in
theorem first_arg5 (W : Valuation τ sig (Elt Ideal)) :
    StableHlo.after hostOps0 W (Proc.devRef .tc main_arg5) = W (Proc.devRef .tc main_arg5) := by
  after_results_simp

set_option maxHeartbeats 40000000 in
theorem first_arg6 (W : Valuation τ sig (Elt Ideal)) :
    StableHlo.after hostOps0 W (Proc.devRef .tc main_arg6) = W (Proc.devRef .tc main_arg6) := by
  after_results_simp

set_option maxHeartbeats 40000000 in
theorem mid_v17 (W : Valuation τ sig (Elt Ideal)) :
    StableHlo.after hostOps0_1 W (Proc.devRef .tc main_v17) = dinvOf (W (Proc.devRef .tc main_v13)) (W (Proc.devRef .tc main_v16)) (W (Proc.devRef .tc main_cst_3)) := by
  after_results_simp
  simp only [ofBuf_toBuf]
  rfl

set_option maxHeartbeats 40000000 in
theorem mid_v3 (W : Valuation τ sig (Elt Ideal)) :
    StableHlo.after hostOps0_1 W (Proc.devRef .tc main_v3) = W (Proc.devRef .tc main_v3) := by
  after_results_simp

set_option maxHeartbeats 40000000 in
theorem mid_v6 (W : Valuation τ sig (Elt Ideal)) :
    StableHlo.after hostOps0_1 W (Proc.devRef .tc main_v6) = W (Proc.devRef .tc main_v6) := by
  after_results_simp

set_option maxHeartbeats 40000000 in
theorem mid_v8 (W : Valuation τ sig (Elt Ideal)) :
    StableHlo.after hostOps0_1 W (Proc.devRef .tc main_v8) = W (Proc.devRef .tc main_v8) := by
  after_results_simp

set_option maxHeartbeats 40000000 in
theorem mid_arg0 (W : Valuation τ sig (Elt Ideal)) :
    StableHlo.after hostOps0_1 W (Proc.devRef .tc main_arg0) = W (Proc.devRef .tc main_arg0) := by
  after_results_simp

set_option maxHeartbeats 40000000 in
theorem mid_arg3 (W : Valuation τ sig (Elt Ideal)) :
    StableHlo.after hostOps0_1 W (Proc.devRef .tc main_arg3) = W (Proc.devRef .tc main_arg3) := by
  after_results_simp

set_option maxHeartbeats 40000000 in
theorem mid_arg4 (W : Valuation τ sig (Elt Ideal)) :
    StableHlo.after hostOps0_1 W (Proc.devRef .tc main_arg4) = W (Proc.devRef .tc main_arg4) := by
  after_results_simp

set_option maxHeartbeats 40000000 in
theorem mid_arg5 (W : Valuation τ sig (Elt Ideal)) :
    StableHlo.after hostOps0_1 W (Proc.devRef .tc main_arg5) = W (Proc.devRef .tc main_arg5) := by
  after_results_simp

set_option maxHeartbeats 40000000 in
theorem mid_arg6 (W : Valuation τ sig (Elt Ideal)) :
    StableHlo.after hostOps0_1 W (Proc.devRef .tc main_arg6) = W (Proc.devRef .tc main_arg6) := by
  after_results_simp

set_option maxHeartbeats 40000000 in
theorem last_v33 (W : Valuation τ sig (Elt Ideal)) :
    StableHlo.after hostOps0_2 W (Proc.devRef .tc main_v33) = normOf (W (Proc.devRef .tc main_v17)) (W (Proc.devRef .tc main_v3)) (W (Proc.devRef .tc main_v6)) (W (Proc.devRef .tc main_v8)) := by
  after_results_simp
  rfl

set_option maxHeartbeats 40000000 in
theorem last_v3 (W : Valuation τ sig (Elt Ideal)) :
    StableHlo.after hostOps0_2 W (Proc.devRef .tc main_v3) = W (Proc.devRef .tc main_v3) := by
  after_results_simp

set_option maxHeartbeats 40000000 in
theorem last_v6 (W : Valuation τ sig (Elt Ideal)) :
    StableHlo.after hostOps0_2 W (Proc.devRef .tc main_v6) = W (Proc.devRef .tc main_v6) := by
  after_results_simp

set_option maxHeartbeats 40000000 in
theorem last_arg0 (W : Valuation τ sig (Elt Ideal)) :
    StableHlo.after hostOps0_2 W (Proc.devRef .tc main_arg0) = W (Proc.devRef .tc main_arg0) := by
  after_results_simp

set_option maxHeartbeats 40000000 in
theorem last_arg3 (W : Valuation τ sig (Elt Ideal)) :
    StableHlo.after hostOps0_2 W (Proc.devRef .tc main_arg3) = W (Proc.devRef .tc main_arg3) := by
  after_results_simp

set_option maxHeartbeats 40000000 in
theorem last_arg4 (W : Valuation τ sig (Elt Ideal)) :
    StableHlo.after hostOps0_2 W (Proc.devRef .tc main_arg4) = W (Proc.devRef .tc main_arg4) := by
  after_results_simp

set_option maxHeartbeats 40000000 in
theorem last_arg5 (W : Valuation τ sig (Elt Ideal)) :
    StableHlo.after hostOps0_2 W (Proc.devRef .tc main_arg5) = W (Proc.devRef .tc main_arg5) := by
  after_results_simp

set_option maxHeartbeats 40000000 in
theorem last_arg6 (W : Valuation τ sig (Elt Ideal)) :
    StableHlo.after hostOps0_2 W (Proc.devRef .tc main_arg6) = W (Proc.devRef .tc main_arg6) := by
  after_results_simp

variable (m : (ℓ : Loc nD τ sig) → Buf (Elt Ideal) ℓ) (ρ : Dev nD → PrngReg)

/-! ## At the first launch's entry: the entries' sources, targets and normalisations, and the arguments -/

theorem W3_v3 (c : Dev nD) : W3 m ρ c (Proc.devRef .tc main_v3) = Cert.HostChain.ends0 (m ((c : Thread nD τ).loc main_arg1)) :=
  (last_v3 (W2 m ρ c)).trans ((mid_v3 (W1 m ρ c)).trans (first_v3 (W0 m ρ c)))

theorem W3_v6 (c : Dev nD) : W3 m ρ c (Proc.devRef .tc main_v6) = Cert.HostChain.ends1 (m ((c : Thread nD τ).loc main_arg1)) :=
  (last_v6 (W2 m ρ c)).trans ((mid_v6 (W1 m ρ c)).trans (first_v6 (W0 m ρ c)))

theorem W3_v33 (c : Dev nD) :
    W3 m ρ c (Proc.devRef .tc main_v33) = Cert.HostChain.norm (F := Ideal) (m ((c : Thread nD τ).loc main_arg1)) (m ((c : Thread nD τ).loc main_arg2)) := by
  have e17 : W2 m ρ c (Proc.devRef .tc main_v17) = dinvOf (W1 m ρ c (Proc.devRef .tc main_v13)) (W1 m ρ c (Proc.devRef .tc main_v16)) (W1 m ρ c (Proc.devRef .tc main_cst_3)) := mid_v17 (W1 m ρ c)
  have e13 : W1 m ρ c (Proc.devRef .tc main_v13) = cmpf .ogt (Cert.HostChain.deg (F := Ideal) (m ((c : Thread nD τ).loc main_arg1)) (m ((c : Thread nD τ).loc main_arg2))) (broadcastInDim S100000 ![] bcast_S_S100000 (constant (F := Ideal) S_ .f32 0x00000000#32)) := first_v13 (W0 m ρ c)
  have e16 : W1 m ρ c (Proc.devRef .tc main_v16) = Host.rsqrt (maximumf (Cert.HostChain.deg (F := Ideal) (m ((c : Thread nD τ).loc main_arg1)) (m ((c : Thread nD τ).loc main_arg2))) (broadcastInDim S100000 ![] bcast_S_S100000 (constant S_ .f32 0x0DA24260#32))) := first_v16 (W0 m ρ c)
  have ec : W1 m ρ c (Proc.devRef .tc main_cst_3) = constant (F := Ideal) S_ .f32 0x00000000#32 := first_cst3 (W0 m ρ c)
  have e3 : W2 m ρ c (Proc.devRef .tc main_v3) = Cert.HostChain.ends0 (m ((c : Thread nD τ).loc main_arg1)) := (mid_v3 (W1 m ρ c)).trans (first_v3 (W0 m ρ c))
  have e6 : W2 m ρ c (Proc.devRef .tc main_v6) = Cert.HostChain.ends1 (m ((c : Thread nD τ).loc main_arg1)) := (mid_v6 (W1 m ρ c)).trans (first_v6 (W0 m ρ c))
  have e8 : W2 m ρ c (Proc.devRef .tc main_v8) = Cert.HostChain.wts (F := Ideal) (m ((c : Thread nD τ).loc main_arg2)) := (mid_v8 (W1 m ρ c)).trans (first_v8 (W0 m ρ c))
  refine (last_v33 (W2 m ρ c)).trans ?_
  rw [e17, e13, e16, ec, e3, e6, e8]
  rfl

theorem W3_arg0 (c : Dev nD) : W3 m ρ c (Proc.devRef .tc main_arg0) = (m ((c : Thread nD τ).loc main_arg0)) :=
  (last_arg0 (W2 m ρ c)).trans ((mid_arg0 (W1 m ρ c)).trans (first_arg0 (W0 m ρ c)))

theorem W3_arg3 (c : Dev nD) : W3 m ρ c (Proc.devRef .tc main_arg3) = (m ((c : Thread nD τ).loc main_arg3)) :=
  (last_arg3 (W2 m ρ c)).trans ((mid_arg3 (W1 m ρ c)).trans (first_arg3 (W0 m ρ c)))

theorem W3_arg4 (c : Dev nD) : W3 m ρ c (Proc.devRef .tc main_arg4) = (m ((c : Thread nD τ).loc main_arg4)) :=
  (last_arg4 (W2 m ρ c)).trans ((mid_arg4 (W1 m ρ c)).trans (first_arg4 (W0 m ρ c)))

theorem W3_arg5 (c : Dev nD) : W3 m ρ c (Proc.devRef .tc main_arg5) = (m ((c : Thread nD τ).loc main_arg5)) :=
  (last_arg5 (W2 m ρ c)).trans ((mid_arg5 (W1 m ρ c)).trans (first_arg5 (W0 m ρ c)))

theorem W3_arg6 (c : Dev nD) : W3 m ρ c (Proc.devRef .tc main_arg6) = (m ((c : Thread nD τ).loc main_arg6)) :=
  (last_arg6 (W2 m ρ c)).trans ((mid_arg6 (W1 m ρ c)).trans (first_arg6 (W0 m ρ c)))

/-! ## Through the first launch: it writes only its output -/

theorem W4_v3 (c : Dev nD) : W4 m ρ c (Proc.devRef .tc main_v3) = W3 m ρ c (Proc.devRef .tc main_v3) := W4_of_ne m ρ c main_v3 (by decide)

theorem W4_v6 (c : Dev nD) : W4 m ρ c (Proc.devRef .tc main_v6) = W3 m ρ c (Proc.devRef .tc main_v6) := W4_of_ne m ρ c main_v6 (by decide)

theorem W4_v33 (c : Dev nD) : W4 m ρ c (Proc.devRef .tc main_v33) = W3 m ρ c (Proc.devRef .tc main_v33) := W4_of_ne m ρ c main_v33 (by decide)

theorem W4_arg4 (c : Dev nD) : W4 m ρ c (Proc.devRef .tc main_arg4) = W3 m ρ c (Proc.devRef .tc main_arg4) := W4_of_ne m ρ c main_arg4 (by decide)

theorem W4_arg5 (c : Dev nD) : W4 m ρ c (Proc.devRef .tc main_arg5) = W3 m ρ c (Proc.devRef .tc main_arg5) := W4_of_ne m ρ c main_arg5 (by decide)

theorem W4_arg6 (c : Dev nD) : W4 m ρ c (Proc.devRef .tc main_arg6) = W3 m ρ c (Proc.devRef .tc main_arg6) := W4_of_ne m ρ c main_arg6 (by decide)

theorem W4_v34 (c : Dev nD) : W4 m ρ c (Proc.devRef .tc main_v34) = (dat0 (V3 m ρ) c).arrAt 2 cfg0.N := W4_arr m ρ c 2

/-! ## Between the first and the second launch: one propagation step, the first bias as a row -/

set_option maxHeartbeats 40000000 in
theorem W5_v47 (c : Dev nD) :
    W5 m ρ c (Proc.devRef .tc main_v47)
      = Cert.HostChain.propagate64 (F := Ideal) (W4 m ρ c (Proc.devRef .tc main_v3)) (W4 m ρ c (Proc.devRef .tc main_v6))
          (W4 m ρ c (Proc.devRef .tc main_v33)) (W4 m ρ c (Proc.devRef .tc main_v34)) := by
  show StableHlo.after hostOps1 (W4 m ρ c) (Proc.devRef .tc main_v47) = _
  generalize W4 m ρ c = W
  after_results_simp
  try simp only [ofBuf_toBuf]
  rfl

set_option maxHeartbeats 40000000 in
theorem W5_v48 (c : Dev nD) :
    W5 m ρ c (Proc.devRef .tc main_v48) = shapeCast S1x64 (W4 m ρ c (Proc.devRef .tc main_arg4)) shapeCasts_S64_S1x64 := by
  show StableHlo.after hostOps1 (W4 m ρ c) (Proc.devRef .tc main_v48) = _
  generalize W4 m ρ c = W
  after_results_simp
  try simp only [ofBuf_toBuf]
  rfl

set_option maxHeartbeats 40000000 in
theorem W5_v3 (c : Dev nD) : W5 m ρ c (Proc.devRef .tc main_v3) = W4 m ρ c (Proc.devRef .tc main_v3) := by
  show StableHlo.after hostOps1 (W4 m ρ c) (Proc.devRef .tc main_v3) = _
  generalize W4 m ρ c = W
  after_results_simp

set_option maxHeartbeats 40000000 in
theorem W5_v6 (c : Dev nD) : W5 m ρ c (Proc.devRef .tc main_v6) = W4 m ρ c (Proc.devRef .tc main_v6) := by
  show StableHlo.after hostOps1 (W4 m ρ c) (Proc.devRef .tc main_v6) = _
  generalize W4 m ρ c = W
  after_results_simp

set_option maxHeartbeats 40000000 in
theorem W5_v33 (c : Dev nD) : W5 m ρ c (Proc.devRef .tc main_v33) = W4 m ρ c (Proc.devRef .tc main_v33) := by
  show StableHlo.after hostOps1 (W4 m ρ c) (Proc.devRef .tc main_v33) = _
  generalize W4 m ρ c = W
  after_results_simp

set_option maxHeartbeats 40000000 in
theorem W5_arg5 (c : Dev nD) : W5 m ρ c (Proc.devRef .tc main_arg5) = W4 m ρ c (Proc.devRef .tc main_arg5) := by
  show StableHlo.after hostOps1 (W4 m ρ c) (Proc.devRef .tc main_arg5) = _
  generalize W4 m ρ c = W
  after_results_simp

set_option maxHeartbeats 40000000 in
theorem W5_arg6 (c : Dev nD) : W5 m ρ c (Proc.devRef .tc main_arg6) = W4 m ρ c (Proc.devRef .tc main_arg6) := by
  show StableHlo.after hostOps1 (W4 m ρ c) (Proc.devRef .tc main_arg6) = _
  generalize W4 m ρ c = W
  after_results_simp

/-! ## Through the second launch -/

theorem W6_v3 (c : Dev nD) : W6 m ρ c (Proc.devRef .tc main_v3) = W5 m ρ c (Proc.devRef .tc main_v3) := W6_of_ne m ρ c main_v3 (by decide)

theorem W6_v6 (c : Dev nD) : W6 m ρ c (Proc.devRef .tc main_v6) = W5 m ρ c (Proc.devRef .tc main_v6) := W6_of_ne m ρ c main_v6 (by decide)

theorem W6_v33 (c : Dev nD) : W6 m ρ c (Proc.devRef .tc main_v33) = W5 m ρ c (Proc.devRef .tc main_v33) := W6_of_ne m ρ c main_v33 (by decide)

theorem W6_arg6 (c : Dev nD) : W6 m ρ c (Proc.devRef .tc main_arg6) = W5 m ρ c (Proc.devRef .tc main_arg6) := W6_of_ne m ρ c main_arg6 (by decide)

theorem W6_v49 (c : Dev nD) : W6 m ρ c (Proc.devRef .tc main_v49) = (dat1 (V5 m ρ) c).arrAt 3 cfg1.N := W6_arr m ρ c 3

/-! ## Between the second and the third launch: one propagation step, the second bias as a row -/

set_option maxHeartbeats 40000000 in
theorem W7_v62 (c : Dev nD) :
    W7 m ρ c (Proc.devRef .tc main_v62)
      = Cert.HostChain.propagate40 (F := Ideal) (W6 m ρ c (Proc.devRef .tc main_v3)) (W6 m ρ c (Proc.devRef .tc main_v6))
          (W6 m ρ c (Proc.devRef .tc main_v33)) (W6 m ρ c (Proc.devRef .tc main_v49)) := by
  show StableHlo.after hostOps2 (W6 m ρ c) (Proc.devRef .tc main_v62) = _
  generalize W6 m ρ c = W
  after_results_simp
  try simp only [ofBuf_toBuf]
  rfl

set_option maxHeartbeats 40000000 in
theorem W7_v63 (c : Dev nD) :
    W7 m ρ c (Proc.devRef .tc main_v63) = shapeCast S1x40 (W6 m ρ c (Proc.devRef .tc main_arg6)) shapeCasts_S40_S1x40 := by
  show StableHlo.after hostOps2 (W6 m ρ c) (Proc.devRef .tc main_v63) = _
  generalize W6 m ρ c = W
  after_results_simp
  try simp only [ofBuf_toBuf]
  rfl

/-! ## The third launch's output is the program's result -/

theorem W8_v64 (c : Dev nD) : W8 m ρ c (Proc.devRef .tc main_v64) = (dat2 (V7 m ρ) c).arrAt 2 cfg2.N := W8_arr m ρ c 2

end Cert.KernelIdeal.HostRead

end
-- ==== Proof.KRun.lean ====
/-
  The idealized kernel's run with its RESULT named. The program is three grid launches among stretches of host
  operations; after the last launch every buffer of a core that is not a scratch of some launch holds the contents the
  chain of boundaries gives it: the launch memory pushed through each stretch of host operations and, at each grid
  launch, each output array replaced by what the grid's write-backs leave. The result array of the program is the third
  launch's output, so every weakly fair execution ends with it at that boundary's contents, and with the seven argument
  arrays as launched.
-/
import proofs.«122044_j11776800326009_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched: the launch over the program's eight segments, the last
    thread state read against the final state. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.Spec.lean ====
/-
  The three dense stages of a two-layer graph convolution, each as ONE function of whole arrays, entry by entry.
  Rows are the 100000 nodes. The first stage is the product of the node features [100000, 256] with a weight matrix
  [256, 64]. The second adds a bias row to an aggregated [100000, 64] array, clips at zero, and multiplies by a weight
  matrix [64, 40]. The third adds a bias row to an aggregated [100000, 40] array and takes the logarithm of the softmax
  along each row, in the form "entry minus (row maximum plus the logarithm of the sum of the exponentials of the entries
  shifted by the row maximum)". All on the extended reals; the zero and minus-infinity words are kept as written.
-/
import Idealize.ShloMosaic.PureOps.Ideal
import Idealize.ShloMosaic.Lib.ValueIdx

noncomputable section

open scoped BigOperators

namespace Cert.Spec

open Idealize.ShloMosaic Idealize.ShloMosaic.ValueIdx

/-- Entry (r, c) of the product of `x` [100000, 256] with `w` [256, 64]. -/
def G0At (x : (⟨2, ![100000, 256]⟩ : Shape).Idx → EReal) (w : (⟨2, ![256, 64]⟩ : Shape).Idx → EReal)
    (r : Fin 100000) (c : Fin 64) : EReal :=
  ∑ k : Fin 256, x (ix2 r k) * w (ix2 k c)

/-- Entry (r, c) of the product of the clipped, biased `a` [100000, 64] (bias row `b` [1, 64]) with `w` [64, 40]. -/
def G1At (a : (⟨2, ![100000, 64]⟩ : Shape).Idx → EReal) (b : (⟨2, ![1, 64]⟩ : Shape).Idx → EReal)
    (w : (⟨2, ![64, 40]⟩ : Shape).Idx → EReal) (r : Fin 100000) (c : Fin 40) : EReal :=
  ∑ k : Fin 64, max (a (ix2 r k) + b (ix2 (0 : Fin 1) k)) (Ideal.ofBits .f32 0x00000000#32) * w (ix2 k c)

/-- Row `r` of the biased `a` [100000, 40] (bias row `b` [1, 40]). -/
def logit (a : (⟨2, ![100000, 40]⟩ : Shape).Idx → EReal) (b : (⟨2, ![1, 40]⟩ : Shape).Idx → EReal)
    (r : Fin 100000) (j : Fin 40) : EReal :=
  a (ix2 r j) + b (ix2 (0 : Fin 1) j)

/-- The maximum of a row of 40 entries, folded from minus infinity. -/
def rowMax (z : Fin 40 → EReal) : EReal :=
  (Finset.univ : Finset (Fin 40)).fold max (Ideal.ofBits .f32 0xFF800000#32) z

/-- The log-softmax of one row of 40 entries at `c`: the entry minus (the row maximum plus the logarithm of the sum over
    the row of the exponentials of the entries less the row maximum). -/
def lsmRow (z : Fin 40 → EReal) (c : Fin 40) : EReal :=
  z c - (rowMax z + Ideal.log (∑ j : Fin 40, Ideal.exp (z j - rowMax z)))

/-- Entry (r, c) of the row-wise log-softmax of the biased `a`. -/
def G2At (a : (⟨2, ![100000, 40]⟩ : Shape).Idx → EReal) (b : (⟨2, ![1, 40]⟩ : Shape).Idx → EReal)
    (r : Fin 100000) (c : Fin 40) : EReal :=
  lsmRow (logit a b r) c

end Cert.Spec

end
-- ==== Proof.Region0.lean ====
/-
  THE FIRST GRID LAUNCH AS ONE FUNCTION. Ten grid points, point t holding rows 10000 t .. 10000 t + 9999 of the
  [100000, 256] array and the whole [256, 64] matrix, each storing the product of its row block with the matrix
  into rows 10000 t .. 10000 t + 9999 of the [100000, 64] result. The blocks tile the result's rows, so after the
  launch entry (r, c) of the result is the sum over k of x (r, k) * w (k, c), whatever the arrays held at entry.
-/
import proofs.«122044_j11776800326009_2_alg».proof.Proof.Gen.KernelIdeal.Frame
import proofs.«122044_j11776800326009_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The matrix unit's operand positions at result entry i and contracted position q: (i 0, q) on the left, -/
theorem lhs0_0 (i : S10000x64.Idx) (q : dot_S10000x256_S256x64_S10000x64_1_0_0_1_n_n.contr.Idx) : (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide), dif_pos (show (0 : Fin S10000x256.rank) ∈ dot_S10000x256_S256x64_S10000x64_1_0_0_1_n_n.lhsNonContracting by decide)]
  rfl
theorem lhs0_1 (i : S10000x64.Idx) (q : dot_S10000x256_S256x64_S10000x64_1_0_0_1_n_n.contr.Idx) : (dot_S10000x256_S256x64_S10000x64_1_0_0_1_n_n.lhsIdx i q 1).val = (q ⟨0, by decide⟩).val :=
  dot_S10000x256_S256x64_S10000x64_1_0_0_1_n_n.lhsIdx_val_of_single rfl i q
/-- and (q, i 1) on the right. -/
theorem rhs0_0 (i : S10000x64.Idx) (q : dot_S10000x256_S256x64_S10000x64_1_0_0_1_n_n.contr.Idx) : (dot_S10000x256_S256x64_S10000x64_1_0_0_1_n_n.rhsIdx i q 0).val = (q ⟨0, by decide⟩).val :=
  dot_S10000x256_S256x64_S10000x64_1_0_0_1_n_n.rhsIdx_val_of_single rfl i q
theorem rhs0_1 (i : S10000x64.Idx) (q : dot_S10000x256_S256x64_S10000x64_1_0_0_1_n_n.contr.Idx) : (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide), dif_pos (show (1 : Fin S256x64.rank) ∈ dot_S10000x256_S256x64_S10000x64_1_0_0_1_n_n.rhsNonContracting by decide)]
  rfl

/-- The body's payload at entry (p, q): the sum over the 256 contracted positions of the products (the narrowing of
    the operands is the identity on extended reals, and the accumulator is the zero splat). -/
theorem pay0_apply (x0 : Vec Ideal S10000x256 .f32) (x1 : Vec Ideal S256x64 .f32) (p : Fin 10000) (q : Fin 64) :
    k0_pay1 x0 x1 (ix2 p q) = ∑ k : Fin 256, x0 (ix2 p k) * x1 (ix2 k q) := by
  unfold k0_pay1
  show FloatOps.matmul dot_S10000x256_S256x64_S10000x64_1_0_0_1_n_n none _ _ (constant S10000x64 .f32 0x00000000#32) (ix2 p q) = _
  rw [Ideal.matmul_constant_zero_apply, ← Equiv.sum_comp (contrEquiv1 dot_S10000x256_S256x64_S10000x64_1_0_0_1_n_n 256 rfl rfl).symm]
  refine Finset.sum_congr rfl fun k _ => ?_
  have hk := contrEquiv1_symm_val dot_S10000x256_S256x64_S10000x64_1_0_0_1_n_n 256 rfl rfl k
  have el : dot_S10000x256_S256x64_S10000x64_1_0_0_1_n_n.lhsIdx (ix2 p q) ((contrEquiv1 dot_S10000x256_S256x64_S10000x64_1_0_0_1_n_n 256 rfl rfl).symm k) = ix2 p k := funext fun a => Fin.ext (by
    match a with
    | ⟨0, _⟩ => exact lhs0_0 _ _
    | ⟨1, _⟩ => exact (lhs0_1 _ _).trans hk)
  have er : dot_S10000x256_S256x64_S10000x64_1_0_0_1_n_n.rhsIdx (ix2 p q) ((contrEquiv1 dot_S10000x256_S256x64_S10000x64_1_0_0_1_n_n 256 rfl rfl).symm k) = ix2 k q := funext fun a => Fin.ext (by
    match a with
    | ⟨0, _⟩ => exact (rhs0_0 _ _).trans hk
    | ⟨1, _⟩ => exact rhs0_1 _ _)
  rw [el, er]
  rfl

/-- The same at any index of the payload's shape. -/
theorem pay0_apply' (x0 : Vec Ideal S10000x256 .f32) (x1 : Vec Ideal S256x64 .f32) (i : S10000x64.Idx) :
    k0_pay1 x0 x1 i = ∑ k : Fin 256, x0 (ix2 (⟨(i 0).val, idx2_lt0 i⟩ : Fin 10000) k) * x1 (ix2 k (⟨(i 1).val, idx2_lt1 i⟩ : Fin 64)) := by
  obtain ⟨p, q, rfl⟩ : ∃ (p : Fin 10000) (q : Fin 64), i = ix2 p q := ⟨i 0, i 1, eq_ix2 i⟩
  exact pay0_apply x0 x1 p q

/-- The index maps over the grid: point t reads row block t of the left operand, the whole right operand, and writes
    row block t of the result. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left operand's block at point t is rows 10000 t .. 10000 t + 9999 of the array. -/
theorem iblk0_0_apply (c : Dev nD) (t : Fin cfg0.N) (y : S10000x256.Idx) (k : S100000x256.Idx)
    (hk0 : (k 0).val = 10000 * t.val + (y 0).val) (hk1 : (k 1).val = (y 1).val) :
    (iblk0 V c 0 t : Vec Ideal S10000x256 .f32) y = (V c main_arg0 : S100000x256.Idx → EReal) k := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 10000 + 1 * (y 0).val = (k 0).val; rw [e0, hk0]; omega
  | ⟨1, _⟩ => show win0_0.index t 1 * 256 + 1 * (y 1).val = (k 1).val; rw [e1, hk1]; omega

/-- The right operand's block at every point is the whole matrix. -/
theorem iblk0_1_apply (c : Dev nD) (t : Fin cfg0.N) (y : S256x64.Idx) :
    (iblk0 V c 1 t : Vec Ideal S256x64 .f32) y = (V c main_arg3 : S256x64.Idx → EReal) y := by
  obtain ⟨-, -, e2, e3, -, -⟩ := idx_facts0 t
  unfold iblk0
  rw [View.read_apply]
  show V c main_arg3 _ = V c main_arg3 _
  congr 1
  funext a
  apply Fin.ext
  match a with
  | ⟨0, _⟩ => show win0_1.index t 0 * 256 + 1 * (y 0).val = (y 0).val; rw [e2]; omega
  | ⟨1, _⟩ => show win0_1.index t 1 * 64 + 1 * (y 1).val = (y 1).val; rw [e3]; omega

/-- What point t writes back is block t of the product: its rows 10000 t .. 10000 t + 9999. -/
theorem flushed0_eq (c : Dev nD) (t : Fin cfg0.N) :
    (dat0 (F := Ideal) V c).flushed 2 t
      = ((cfg0.win 2).blk t).view.read (Elt Ideal) (fun i => Cert.Spec.G0At (V c main_arg0) (V c main_arg3) (i 0) (i 1)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x64) hz]
  obtain ⟨-, -, -, -, e4, e5⟩ := idx_facts0 t
  funext j
  refine (pay0_apply' _ _ _).trans ?_
  rw [View.read_apply]
  show _ = Cert.Spec.G0At (V c main_arg0) (V c main_arg3) ((((cfg0.win 2).blk t).view.emb j) 0) ((((cfg0.win 2).blk t).view.emb j) 1)
  unfold Cert.Spec.G0At
  have hj0 : (j 0).val < 10000 := (j 0).isLt
  have hj1 : (j 1).val < 64 := (j 1).isLt
  have hr : ((((cfg0.win 2).blk t).view.emb j) 0).val = win0_2.index t (0 : Fin 2) * 10000 + 1 * (j 0).val := rfl
  have hc : ((((cfg0.win 2).blk t).view.emb j) 1).val = win0_2.index t (1 : Fin 2) * 64 + 1 * (j 1).val := rfl
  refine Finset.sum_congr rfl fun k _ => ?_
  rw [iblk0_0_apply V c t _ (ix2 ((((cfg0.win 2).blk t).view.emb j) 0) k) (by show _ = 10000 * t.val + (j 0).val; rw [hr, e4]; omega) rfl,
    iblk0_1_apply V c t]
  congr 2
  funext a
  apply Fin.ext
  match a with
  | ⟨0, _⟩ => rfl
  | ⟨1, _⟩ => show (j 1).val = _; rw [hc, e5]; omega

/-- An index of the result is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- The ten row blocks cover the result: row r is in block r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [show cfg0.N = 10 from N_0]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

/-- THE RESULT ARRAY after the launch: entry (r, c) is the sum over k of x (r, k) * w (k, c). -/
theorem final0 (c : Dev nD) :
    (dat0 (F := Ideal) V c).arrAt 2 cfg0.N = (fun i => Cert.Spec.G0At (V c main_arg0) (V c main_arg3) (i 0) (i 1)) :=
  (dat0 (F := Ideal) V c).arrAt_eq_of_cover 2 _ (fun t _ => flushed0_eq V c t) cover0

end Cert.KernelIdeal.Region0

end
-- ==== Proof.Region1.lean ====
/-
  THE SECOND GRID LAUNCH AS ONE FUNCTION. Twenty grid points, point t holding rows 5000 t .. 5000 t + 4999 of the
  [100000, 64] array, the whole bias row [1, 64] and the whole [64, 40] matrix; each adds the bias row to every row
  of its block, clips at zero, and stores the product with the matrix into rows 5000 t .. 5000 t + 4999 of the
  [100000, 40] result. The blocks tile the result's rows, so after the launch entry (r, c) of the result is the sum
  over k of max (a (r, k) + b (0, k)) 0 * w (k, c), whatever the arrays held at entry.
-/
import proofs.«122044_j11776800326009_2_alg».proof.Proof.Gen.KernelIdeal.Frame
import proofs.«122044_j11776800326009_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The matrix unit's operand positions at result entry i and contracted position q: (i 0, q) on the left, -/
theorem lhs1_0 (i : S5000x40.Idx) (q : dot_S5000x64_S64x40_S5000x40_1_0_0_1_n_n.contr.Idx) : (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem lhs1_1 (i : S5000x40.Idx) (q : dot_S5000x64_S64x40_S5000x40_1_0_0_1_n_n.contr.Idx) : (dot_S5000x64_S64x40_S5000x40_1_0_0_1_n_n.lhsIdx i q 1).val = (q ⟨0, by decide⟩).val :=
  dot_S5000x64_S64x40_S5000x40_1_0_0_1_n_n.lhsIdx_val_of_single rfl i q
/-- and (q, i 1) on the right. -/
theorem rhs1_0 (i : S5000x40.Idx) (q : dot_S5000x64_S64x40_S5000x40_1_0_0_1_n_n.contr.Idx) : (dot_S5000x64_S64x40_S5000x40_1_0_0_1_n_n.rhsIdx i q 0).val = (q ⟨0, by decide⟩).val :=
  dot_S5000x64_S64x40_S5000x40_1_0_0_1_n_n.rhsIdx_val_of_single rfl i q
theorem rhs1_1 (i : S5000x40.Idx) (q : dot_S5000x64_S64x40_S5000x40_1_0_0_1_n_n.contr.Idx) : (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The bias row laid along every row of the block, at (p, k), is entry (0, k) of the row. -/
theorem bias_apply (x1 : Vec Ideal S1x64 .f32) (p : Fin 5000) (k : Fin 64) :
    broadcastTo S5000x64 x1 broadcasts_S1x64_S5000x64 (ix2 p k) = x1 (ix2 (0 : Fin 1) k) :=
  broadcastTo_apply x1 broadcasts_S1x64_S5000x64 (ix2 p k) (ix2 (0 : Fin 1) k) (fun a => match a with | ⟨0, _⟩ => rfl | ⟨1, _⟩ => rfl)

/-- The body's payload at entry (p, q): the sum over the 64 contracted positions of the clipped biased entry times
    the matrix entry (the casts to the same shape and the narrowing of the operands are the identity on extended
    reals, and the accumulator is the zero splat). -/
theorem pay1_apply (x0 : Vec Ideal S5000x64 .f32) (x1 : Vec Ideal S1x64 .f32) (x2 : Vec Ideal S64x40 .f32) (p : Fin 5000) (q : Fin 40) :
    k1_pay1 x0 x1 x2 (ix2 p q)
      = ∑ k : Fin 64, max (x0 (ix2 p k) + x1 (ix2 (0 : Fin 1) k)) (Ideal.ofBits .f32 0x00000000#32) * x2 (ix2 k q) := by
  unfold k1_pay1
  simp only [shapeCast_self]
  show FloatOps.matmul dot_S5000x64_S64x40_S5000x40_1_0_0_1_n_n none _ _ (constant S5000x40 .f32 0x00000000#32) (ix2 p q) = _
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k := funext fun a => Fin.ext (by
    match a with
    | ⟨0, _⟩ => exact lhs1_0 _ _
    | ⟨1, _⟩ => exact (lhs1_1 _ _).trans hk)
  have er : dot_S5000x64_S64x40_S5000x40_1_0_0_1_n_n.rhsIdx (ix2 p q) ((contrEquiv1 dot_S5000x64_S64x40_S5000x40_1_0_0_1_n_n 64 rfl rfl).symm k) = ix2 k q := funext fun a => Fin.ext (by
    match a with
    | ⟨0, _⟩ => exact (rhs1_0 _ _).trans hk
    | ⟨1, _⟩ => exact rhs1_1 _ _)
  rw [el, er]
  show max (x0 (ix2 p k) + broadcastTo S5000x64 x1 broadcasts_S1x64_S5000x64 (ix2 p k)) (Ideal.ofBits .f32 0x00000000#32) * x2 (ix2 k q) = _
  rw [bias_apply]

/-- The same at any index of the payload's shape. -/
theorem pay1_apply' (x0 : Vec Ideal S5000x64 .f32) (x1 : Vec Ideal S1x64 .f32) (x2 : Vec Ideal S64x40 .f32) (i : S5000x40.Idx) :
    k1_pay1 x0 x1 x2 i
      = ∑ k : Fin 64, max (x0 (ix2 (⟨(i 0).val, idx2_lt0 i⟩ : Fin 5000) k) + x1 (ix2 (0 : Fin 1) k)) (Ideal.ofBits .f32 0x00000000#32)
          * x2 (ix2 k (⟨(i 1).val, idx2_lt1 i⟩ : Fin 40)) := by
  obtain ⟨p, q, rfl⟩ : ∃ (p : Fin 5000) (q : Fin 40), i = ix2 p q := ⟨i 0, i 1, eq_ix2 i⟩
  exact pay1_apply x0 x1 x2 p q

/-- The index maps over the grid: point t reads row block t of the [100000, 64] array, the whole bias row and the
    whole matrix, and writes row block t of the result. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The first operand's block at point t is rows 5000 t .. 5000 t + 4999 of the array. -/
theorem iblk1_0_apply (c : Dev nD) (t : Fin cfg1.N) (y : S5000x64.Idx) (k : S100000x64.Idx)
    (hk0 : (k 0).val = 5000 * t.val + (y 0).val) (hk1 : (k 1).val = (y 1).val) :
    (iblk1 V c 0 t : Vec Ideal S5000x64 .f32) y = (V c main_v47 : S100000x64.Idx → EReal) k := by
  obtain ⟨e0, e1, -, -, -, -, -, -⟩ := idx_facts1 t
  unfold iblk1
  rw [View.read_apply]
  show V c main_v47 _ = V c main_v47 _
  congr 1
  funext a
  apply Fin.ext
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- The bias row's block at every point is the whole row. -/
theorem iblk1_1_apply (c : Dev nD) (t : Fin cfg1.N) (y : S1x64.Idx) :
    (iblk1 V c 1 t : Vec Ideal S1x64 .f32) y = (V c main_v48 : S1x64.Idx → EReal) y := by
  obtain ⟨-, -, e2, e3, -, -, -, -⟩ := idx_facts1 t
  unfold iblk1
  rw [View.read_apply]
  show V c main_v48 _ = V c main_v48 _
  congr 1
  funext a
  apply Fin.ext
  match a with
  | ⟨0, _⟩ => show win1_1.index t 0 * 1 + 1 * (y 0).val = (y 0).val; rw [e2]; omega
  | ⟨1, _⟩ => show win1_1.index t 1 * 64 + 1 * (y 1).val = (y 1).val; rw [e3]; omega

/-- The matrix's block at every point is the whole matrix. -/
theorem iblk1_2_apply (c : Dev nD) (t : Fin cfg1.N) (y : S64x40.Idx) :
    (iblk1 V c 2 t : Vec Ideal S64x40 .f32) y = (V c main_arg5 : S64x40.Idx → EReal) y := by
  obtain ⟨-, -, -, -, e4, e5, -, -⟩ := idx_facts1 t
  unfold iblk1
  rw [View.read_apply]
  show V c main_arg5 _ = V c main_arg5 _
  congr 1
  funext a
  apply Fin.ext
  match a with
  | ⟨0, _⟩ => show win1_2.index t 0 * 64 + 1 * (y 0).val = (y 0).val; rw [e4]; omega
  | ⟨1, _⟩ => show win1_2.index t 1 * 40 + 1 * (y 1).val = (y 1).val; rw [e5]; omega

/-- What point t writes back is block t of the closed form: its rows 5000 t .. 5000 t + 4999. -/
theorem flushed1_eq (c : Dev nD) (t : Fin cfg1.N) :
    (dat1 (F := Ideal) V c).flushed 3 t
      = ((cfg1.win 3).blk t).view.read (Elt Ideal)
          (fun i => Cert.Spec.G1At (V c main_v47) (V c main_v48) (V c main_arg5) (i 0) (i 1)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x40) hz]
  obtain ⟨-, -, -, -, -, -, e6, e7⟩ := idx_facts1 t
  funext j
  refine (pay1_apply' _ _ _ _).trans ?_
  rw [View.read_apply]
  show _ = Cert.Spec.G1At (V c main_v47) (V c main_v48) (V c main_arg5) ((((cfg1.win 3).blk t).view.emb j) 0) ((((cfg1.win 3).blk t).view.emb j) 1)
  unfold Cert.Spec.G1At
  have hj0 : (j 0).val < 5000 := (j 0).isLt
  have hj1 : (j 1).val < 40 := (j 1).isLt
  have hr : ((((cfg1.win 3).blk t).view.emb j) 0).val = win1_3.index t (0 : Fin 2) * 5000 + 1 * (j 0).val := rfl
  have hc : ((((cfg1.win 3).blk t).view.emb j) 1).val = win1_3.index t (1 : Fin 2) * 40 + 1 * (j 1).val := rfl
  refine Finset.sum_congr rfl fun k _ => ?_
  rw [iblk1_0_apply V c t _ (ix2 ((((cfg1.win 3).blk t).view.emb j) 0) k) (by show _ = 5000 * t.val + (j 0).val; rw [hr, e6]; omega) rfl,
    iblk1_1_apply V c t, iblk1_2_apply V c t]
  congr 2
  funext a
  apply Fin.ext
  match a with
  | ⟨0, _⟩ => rfl
  | ⟨1, _⟩ => show (j 1).val = _; rw [hc, e7]; omega

/-- An index of the result is in point t's block iff each coordinate is in the block's range on its axis. -/
theorem mem_blk1 (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v49).slice (win1_3.rect t)).set ↔ _
  rw [View.set_slice_whole, Rect.mem_set_unit]
  exact Iff.rfl

/-- The twenty row blocks cover the result: row r is in block r / 5000. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ : ∃ t : Fin cfg1.N, t.val = (i 0).val / 5000 := ⟨⟨(i 0).val / 5000, by rw [show cfg1.N = 20 from N_1]; omega⟩, rfl⟩
  obtain ⟨-, -, -, -, -, -, e6, e7⟩ := idx_facts1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 40 ≤ (i 1).val ∧ (i 1).val < win1_3.index t (1 : Fin 2) * 40 + 40; rw [e7]; omega

/-- THE RESULT ARRAY after the launch: entry (r, c) is the sum over k of max (a (r, k) + b (0, k)) 0 * w (k, c). -/
theorem final1 (c : Dev nD) :
    (dat1 (F := Ideal) V c).arrAt 3 cfg1.N
      = (fun i => Cert.Spec.G1At (V c main_v47) (V c main_v48) (V c main_arg5) (i 0) (i 1)) :=
  (dat1 (F := Ideal) V c).arrAt_eq_of_cover 3 _ (fun t _ => flushed1_eq V c t) cover1

end Cert.KernelIdeal.Region1

end
-- ==== Proof.Region2Pay.lean ====
/-
  The third body's stored value, read at one entry.

  The body adds a bias row to a block of 5000 rows of 40 entries, takes each row's maximum `m` (folded from minus
  infinity), the sum `S` over the row of the exponentials of the entries less `m`, and stores, at each entry `z` of the
  row, `z - (m + log S)`.  Read at entry `(p, q)` this is the log-softmax of row `p` of the biased block at `q`, as
  `Cert.Spec.lsmRow` writes it.  The steps: a reshape to the same shape is the identity; a `[1, 40]` row broadcast over
  the rows reads its one row; a reduction along the row axis reads, at row `p`, the fold or the sum over `k` of the
  entries `(p, k)`; a `[5000]` vector reshaped to a `[5000, 1]` column and the column broadcast over `[5000, 40]` read
  the vector at the row's index.
-/
import proofs.«122044_j11776800326009_2_alg».proof.Proof.Gen.KernelIdeal.Skeleton
import proofs.«122044_j11776800326009_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2Pay

open Cert.KernelIdeal Cert.KernelIdeal.Gen Idealize.ShloMosaic Idealize.ShloMosaic.ValueIdx

section Column
variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl
end Column

/-- The block with the bias row added to every row. -/
def biased (x0 : Vec Ideal S5000x40 .f32) (x1 : Vec Ideal S1x40 .f32) : FVec Ideal S5000x40 .f32 :=
  addf (shapeCast S5000x40 x0 shapeCasts_S5000x40_S5000x40)
    (broadcastTo S5000x40 (shapeCast S1x40 (shapeCast S1x40 x1 shapeCasts_S1x40_S1x40) shapeCasts_S1x40_S1x40)
      broadcasts_S1x40_S5000x40)

/-- The biased block at `(p, j)` is the block's entry plus the bias row's entry `j`. -/
theorem biased_apply (x0 : Vec Ideal S5000x40 .f32) (x1 : Vec Ideal S1x40 .f32) (p : Fin 5000) (j : Fin 40) :
    biased x0 x1 (ix2 p j) = x0 (ix2 p j) + x1 (ix2 (0 : Fin 1) j) := by
  unfold biased
  rw [shapeCast_self, shapeCast_self, shapeCast_self]
  exact congrArg (x0 (ix2 p j) + ·) (broadcastTo_1b_ab_apply x1 _ p j)

variable (Z : FVec Ideal S5000x40 .f32)

/-- The row maxima. -/
def rmax : FVec Ideal S5000 .f32 :=
  multiReduction .maximumf [1] S5000 Z 0xFF800000#32 reduces_S5000x40_S5000 (.inl rfl) rfl

/-- The row maxima as a column. -/
def rmaxCol : FVec Ideal S5000x1 .f32 := shapeCast S5000x1 (rmax Z) shapeCasts_S5000_S5000x1

/-- The exponentials of the entries less their row's maximum. -/
def expShift : FVec Ideal S5000x40 .f32 :=
  exp (subf Z (broadcastTo S5000x40 (rmaxCol Z) broadcasts_S5000x1_S5000x40))

/-- The row sums of the exponentials. -/
def rsum : FVec Ideal S5000 .f32 :=
  multiReduction .add [1] S5000 (expShift Z) 0x00000000#32 reduces_S5000x40_S5000 (.inl rfl) rfl

/-- The whole body. -/
def lsmBlock : FVec Ideal S5000x40 .f32 :=
  subf Z (broadcastTo S5000x40
    (addf (rmaxCol Z) (log (shapeCast S5000x1 (rsum Z) shapeCasts_S5000_S5000x1))) broadcasts_S5000x1_S5000x40)

/-- The stored value is the log-softmax body applied to the biased block: the same term, its parts named. -/
theorem k2_pay1_eq (x0 : Vec Ideal S5000x40 .f32) (x1 : Vec Ideal S1x40 .f32) :
    k2_pay1 (F := Ideal) x0 x1 = lsmBlock (biased x0 x1) := rfl

/-- The index of row `p` with the coordinate `k` put back on the reduced axis is `(p, k)`. -/
theorem lift_eq (p : Fin 5000) (k : Fin 40) :
    (reduces_S5000x40_S5000 : S5000x40.Reduces [1] S5000).lift (ix1 p) k = ix2 p k := by
  funext ax
  match ax with
  | ⟨0, _⟩ => exact Fin.ext rfl
  | ⟨1, _⟩ => exact Fin.ext rfl

/-- The row maxima at `p`: the maximum of row `p`, folded from minus infinity. -/
theorem rmax_apply (p : Fin 5000) : rmax Z (ix1 p) = Cert.Spec.rowMax (fun j => Z (ix2 p j)) := by
  unfold rmax
  refine (Ideal.multiReduction_maximumf_single Z _ _ _ _ (ix1 p)).trans ?_
  unfold Cert.Spec.rowMax
  have : (Z ∘ (reduces_S5000x40_S5000 : S5000x40.Reduces [1] S5000).lift (ix1 p)) = fun j : Fin 40 => Z (ix2 p j) :=
    funext fun k => congrArg Z (lift_eq p k)
  rw [this]
  rfl

/-- The column of row maxima at `(p, u)` is the maximum of row `p`. -/
theorem rmaxCol_apply (p : Fin 5000) (u : Fin 1) :
    rmaxCol Z (ix2 p u) = Cert.Spec.rowMax (fun j => Z (ix2 p j)) := by
  unfold rmaxCol
  exact (shapeCast_a_a1_apply (rmax Z) _ p u).trans (rmax_apply Z p)

/-- The shifted exponentials at `(p, j)`: the exponential of the entry less its row's maximum. -/
theorem expShift_apply (p : Fin 5000) (j : Fin 40) :
    expShift Z (ix2 p j) = Ideal.exp (Z (ix2 p j) - Cert.Spec.rowMax (fun j => Z (ix2 p j))) := by
  unfold expShift
  show Ideal.exp (Z (ix2 p j) - broadcastTo S5000x40 (rmaxCol Z) broadcasts_S5000x1_S5000x40 (ix2 p j)) = _
  rw [broadcastTo_a1_ab_apply (rmaxCol Z) _ p j, rmaxCol_apply]

/-- The row sums at `p`: the sum over row `p` of the shifted exponentials. -/
theorem rsum_apply (p : Fin 5000) :
    rsum Z (ix1 p) = ∑ j : Fin 40, Ideal.exp (Z (ix2 p j) - Cert.Spec.rowMax (fun j => Z (ix2 p j))) := by
  unfold rsum
  refine (Ideal.multiReduction_add_single (expShift Z) _ _ _ _ (ix1 p)).trans ?_
  refine Finset.sum_congr rfl fun k _ => ?_
  rw [lift_eq p k]
  exact expShift_apply Z p k

/-- The body at `(p, q)`: the entry minus (its row's maximum plus the logarithm of its row's sum). -/
theorem lsmBlock_apply (p : Fin 5000) (q : Fin 40) :
    lsmBlock Z (ix2 p q) = Cert.Spec.lsmRow (fun j => Z (ix2 p j)) q := by
  unfold lsmBlock Cert.Spec.lsmRow
  show Z (ix2 p q) - broadcastTo S5000x40
      (addf (rmaxCol Z) (log (shapeCast S5000x1 (rsum Z) shapeCasts_S5000_S5000x1))) broadcasts_S5000x1_S5000x40 (ix2 p q) = _
  rw [broadcastTo_a1_ab_apply _ _ p q]
  show Z (ix2 p q) - (rmaxCol Z (ix2 p (0 : Fin 1))
      + Ideal.log (shapeCast S5000x1 (rsum Z) shapeCasts_S5000_S5000x1 (ix2 p (0 : Fin 1)))) = _
  rw [rmaxCol_apply, shapeCast_a_a1_apply (rsum Z) _ p 0, rsum_apply]

/-- The third body's stored value at entry `(p, q)` is the log-softmax of row `p` of the biased block at `q`. -/
theorem pay2_apply (x0 : Vec Ideal S5000x40 .f32) (x1 : Vec Ideal S1x40 .f32) (p : Fin 5000) (q : Fin 40) :
    k2_pay1 (F := Ideal) x0 x1 (ix2 p q)
      = Cert.Spec.lsmRow (fun j => x0 (ix2 p j) + x1 (ix2 (0 : Fin 1) j)) q := by
  rw [k2_pay1_eq, lsmBlock_apply]
  exact congrArg (fun z => Cert.Spec.lsmRow z q) (funext fun j => biased_apply x0 x1 p j)

end Cert.KernelIdeal.Region2Pay

end
-- ==== Proof.Region2.lean ====
/-
  The third grid launch as ONE function of whole arrays. Its grid has 20 points; point t reads rows 5000·t … 5000·t + 4999
  of the aggregated array [100000, 40] and the whole bias row [1, 40], and writes back the same rows of the result: at
  (r, c) the log-softmax along row r of the aggregated array plus the bias row. Every point writes its block back and
  the 20 blocks tile the rows, so after the launch the result array is that function of the arrays the launch found.
-/
import proofs.«122044_j11776800326009_2_alg».proof.Proof.Gen.KernelIdeal.Frame
import proofs.«122044_j11776800326009_2_alg».proof.Proof.Spec
import proofs.«122044_j11776800326009_2_alg».proof.Proof.Region2Pay
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

open Cert.KernelIdeal.Region2Pay (pay2_apply)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the aggregated array and the bias row. -/
def G (A : S100000x40.Idx → EReal) (B : S1x40.Idx → EReal) : S100000x40.Idx → EReal :=
  fun i => Cert.Spec.G2At A B (i 0) (i 1)

/-- The printed index maps over the grid: the row windows sit at block t, the bias row at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 20 := lt_of_lt_of_eq t.isLt (show cfg2.N = 20 from N_2)

/-- Entry (p, q) of point t's block of a [100000, 40] array is the array's entry (5000·t + p, q). -/
theorem emb_out (t : Fin cfg2.N) (p : Fin 5000) (q : Fin 40) (h : t.val * 5000 + p.val < 100000) :
    ((cfg2.win 2).blk t).view.emb (ix2 p q) = ix2 (⟨t.val * 5000 + p.val, h⟩ : Fin 100000) q := by
  obtain ⟨e0, e1, e2, e3, e4, e5⟩ := idx_facts t
  funext a; apply Fin.ext
  match a with
  | ⟨0, _⟩ => show win2_2.index t (0 : Fin 2) * 5000 + 1 * p.val = t.val * 5000 + p.val; rw [e4]; omega
  | ⟨1, _⟩ => show win2_2.index t (1 : Fin 2) * 40 + 1 * q.val = q.val; rw [e5]; omega

theorem emb_in (t : Fin cfg2.N) (p : Fin 5000) (q : Fin 40) (h : t.val * 5000 + p.val < 100000) :
    ((cfg2.win 0).blk t).view.emb (ix2 p q) = ix2 (⟨t.val * 5000 + p.val, h⟩ : Fin 100000) q := by
  obtain ⟨e0, e1, e2, e3, e4, e5⟩ := idx_facts t
  funext a; apply Fin.ext
  match a with
  | ⟨0, _⟩ => show win2_0.index t (0 : Fin 2) * 5000 + 1 * p.val = t.val * 5000 + p.val; rw [e0]; omega
  | ⟨1, _⟩ => show win2_0.index t (1 : Fin 2) * 40 + 1 * q.val = q.val; rw [e1]; omega

theorem emb_bias (t : Fin cfg2.N) (q : Fin 40) :
    ((cfg2.win 1).blk t).view.emb (ix2 (0 : Fin 1) q) = ix2 (0 : Fin 1) q := by
  obtain ⟨e0, e1, e2, e3, e4, e5⟩ := idx_facts t
  funext a; apply Fin.ext
  match a with
  | ⟨0, _⟩ => show win2_1.index t (0 : Fin 2) * 1 + 1 * 0 = 0; rw [e2]
  | ⟨1, _⟩ => show win2_1.index t (1 : Fin 2) * 40 + 1 * q.val = q.val; rw [e3]; omega

/-- Entry (p, q) of the row window's block at point t is the aggregated array's entry (5000·t + p, q). -/
theorem read_in (c : Dev nD) (t : Fin cfg2.N) (p : Fin 5000) (q : Fin 40) (h : t.val * 5000 + p.val < 100000) :
    (iblk2 V c 0 t : Vec Ideal S5000x40 .f32) (ix2 p q) = (V c main_v62 : S100000x40.Idx → EReal) (ix2 (⟨t.val * 5000 + p.val, h⟩ : Fin 100000) q) := by
  show (V c main_v62 : S100000x40.Idx → EReal) (((cfg2.win 0).blk t).view.emb (ix2 p q)) = _
  rw [emb_in t p q h]

/-- Entry (0, q) of the bias window's block at any point is the bias row's entry (0, q). -/
theorem read_bias (c : Dev nD) (t : Fin cfg2.N) (q : Fin 40) :
    (iblk2 V c 1 t : Vec Ideal S1x40 .f32) (ix2 (0 : Fin 1) q) = (V c main_v63 : S1x40.Idx → EReal) (ix2 (0 : Fin 1) q) := by
  show (V c main_v63 : S1x40.Idx → EReal) (((cfg2.win 1).blk t).view.emb (ix2 (0 : Fin 1) q)) = _
  rw [emb_bias t q]

/-- What point t writes back is block t of `G` of the arrays the launch found. -/
theorem flushed_eq (c : Dev nD) (t : Fin cfg2.N) :
    (dat2 (F := Ideal) V c).flushed 2 t = ((cfg2.win 2).blk t).view.read (Elt Ideal) (G (V c main_v62) (V c main_v63)) := by
  show (cfg2.win 2).cut (grid2.coords t) ((dat2 (F := Ideal) V c).after 2 t) = _
  rw [after2_2]
  unfold out2_2
  rw [View.canon_unit_zero hz]
  simp only [View.ld_unit_zero (S := S5000x40) hz, View.ld_unit_zero (S := S1x40) hz]
  funext j
  obtain ⟨p, q, rfl⟩ : ∃ (p : Fin 5000) (q : Fin 40), j = ix2 p q := ⟨j 0, j 1, eq_ix2 j⟩
  have hlt : t.val * 5000 + p.val < 100000 := by have := t_lt t; have := p.isLt; omega
  refine (pay2_apply (iblk2 V c 0 t) (iblk2 V c 1 t) p q).trans ?_
  show _ = G (V c main_v62) (V c main_v63) (((cfg2.win 2).blk t).view.emb (ix2 p q))
  rw [emb_out t p q hlt]
  show _ = Cert.Spec.lsmRow (Cert.Spec.logit (V c main_v62) (V c main_v63) ⟨t.val * 5000 + p.val, hlt⟩) q
  refine congrArg (fun z => Cert.Spec.lsmRow z q) (funext fun j => ?_)
  exact congrArg₂ (fun a b : EReal => a + b) (read_in V c t p j hlt) (read_bias V c t j)

/-- An index of the array is in point t's block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v64).slice (win2_2.rect t)).set ↔ _
  rw [View.set_slice_whole, Rect.mem_set_unit]
  exact Iff.rfl

/-- Row r is in the block of point r / 5000. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 40 ≤ (i 1).val ∧ (i 1).val < win2_2.index _ (1 : Fin 2) * 40 + 40; rw [e5]; omega

/-- After the launch the result array is `G` of the arrays the launch found. -/
theorem final2 (c : Dev nD) : (dat2 (F := Ideal) V c).arrAt 2 cfg2.N = G (V c main_v62) (V c main_v63) :=
  (dat2 (F := Ideal) V c).arrAt_eq_of_cover 2 (G (V c main_v62) (V c main_v63)) (fun t _ => flushed_eq V c t) cover

end Cert.KernelIdeal.Region2

end
-- ==== Proof.KValue.lean ====
/-
  The idealized kernel's result as ONE function of its seven arguments. The first launch leaves the product of the node
  features with the first weight matrix; a propagation step; the second launch adds the first bias (as a row), clips at
  zero and multiplies by the second weight matrix; a second propagation step; the third launch adds the second bias (as a
  row) and takes the row-wise log-softmax. The sources, targets and normalisations of the entries are those the host
  computed from the edge list and the edge weights before the first launch.
-/
import proofs.«122044_j11776800326009_2_alg».proof.Proof.KHost
import proofs.«122044_j11776800326009_2_alg».proof.Proof.KRun
import proofs.«122044_j11776800326009_2_alg».proof.Proof.Region0
import proofs.«122044_j11776800326009_2_alg».proof.Proof.Region1
import proofs.«122044_j11776800326009_2_alg».proof.Proof.Region2

set_option maxRecDepth 16384

noncomputable section

namespace Cert.KernelIdeal.Value

open Cert.KernelIdeal Cert.KernelIdeal.Gen Idealize.ShloMosaic Idealize.ShloMosaic.TcCoe Idealize.ShloMosaic.StableHlo Idealize.SL.Sem
open Cert.KernelIdeal.HostRead

/-- The kernel's result array as a function of the seven arguments. -/
def out (x0 : S100000x256.Idx → EReal) (x1 : IVec S2x1600000 32) (x2 : S1600000.Idx → EReal) (x3 : S256x64.Idx → EReal)
    (x4 : S64.Idx → EReal) (x5 : S64x40.Idx → EReal) (x6 : S40.Idx → EReal) : S100000x40.Idx → EReal :=
  fun i => Cert.Spec.G2At
    (Cert.HostChain.prop40 (F := Ideal) x1 x2 (fun i => Cert.Spec.G1At
      (Cert.HostChain.prop64 (F := Ideal) x1 x2 (fun i => Cert.Spec.G0At x0 x3 (i 0) (i 1)))
      (shapeCast S1x64 x4 shapeCasts_S64_S1x64) x5 (i 0) (i 1)))
    (shapeCast S1x40 x6 shapeCasts_S40_S1x40) (i 0) (i 1)

variable (m : (ℓ : Loc nD τ sig) → Buf (Elt Ideal) ℓ) (ρ : Dev nD → PrngReg)

/-- The first launch finds the node features and the first weight matrix as launched. -/
theorem V3_arg0 (c : Dev nD) : V3 m ρ c main_arg0 = (m ((c : Thread nD τ).loc main_arg0)) := W3_arg0 m ρ c
theorem V3_arg3 (c : Dev nD) : V3 m ρ c main_arg3 = (m ((c : Thread nD τ).loc main_arg3)) := W3_arg3 m ρ c

/-- The first launch's output: the product of the node features with the first weight matrix. -/
theorem h1_eq (c : Dev nD) :
    W4 m ρ c (Proc.devRef .tc main_v34) = (fun i => Cert.Spec.G0At (m ((c : Thread nD τ).loc main_arg0)) (m ((c : Thread nD τ).loc main_arg3)) (i 0) (i 1)) := by
  rw [W4_v34, Cert.KernelIdeal.Region0.final0 (V3 m ρ) c, V3_arg0, V3_arg3]

/-- The second launch's first operand: one propagation step of the first launch's output. -/
theorem V5_v47 (c : Dev nD) :
    V5 m ρ c main_v47
      = Cert.HostChain.prop64 (F := Ideal) (m ((c : Thread nD τ).loc main_arg1)) (m ((c : Thread nD τ).loc main_arg2)) (fun i => Cert.Spec.G0At (m ((c : Thread nD τ).loc main_arg0)) (m ((c : Thread nD τ).loc main_arg3)) (i 0) (i 1)) := by
  refine (W5_v47 m ρ c).trans ?_
  rw [W4_v3, W4_v6, W4_v33, W3_v3, W3_v6, W3_v33, h1_eq]
  rfl

/-- Its second operand: the first bias as a row. -/
theorem V5_v48 (c : Dev nD) : V5 m ρ c main_v48 = shapeCast S1x64 (m ((c : Thread nD τ).loc main_arg4)) shapeCasts_S64_S1x64 := by
  refine (W5_v48 m ρ c).trans ?_
  rw [W4_arg4, W3_arg4]

/-- Its third operand: the second weight matrix as launched. -/
theorem V5_arg5 (c : Dev nD) : V5 m ρ c main_arg5 = (m ((c : Thread nD τ).loc main_arg5)) :=
  (W5_arg5 m ρ c).trans ((W4_arg5 m ρ c).trans (W3_arg5 m ρ c))

/-- The second launch's output. -/
theorem h2_eq (c : Dev nD) :
    W6 m ρ c (Proc.devRef .tc main_v49) = (fun i => Cert.Spec.G1At
      (Cert.HostChain.prop64 (F := Ideal) (m ((c : Thread nD τ).loc main_arg1)) (m ((c : Thread nD τ).loc main_arg2)) (fun i => Cert.Spec.G0At (m ((c : Thread nD τ).loc main_arg0)) (m ((c : Thread nD τ).loc main_arg3)) (i 0) (i 1)))
      (shapeCast S1x64 (m ((c : Thread nD τ).loc main_arg4)) shapeCasts_S64_S1x64) (m ((c : Thread nD τ).loc main_arg5)) (i 0) (i 1)) := by
  rw [W6_v49, Cert.KernelIdeal.Region1.final1 (V5 m ρ) c, V5_v47, V5_v48, V5_arg5]

/-- The third launch's first operand: one propagation step of the second launch's output. -/
theorem V7_v62 (c : Dev nD) :
    V7 m ρ c main_v62
      = Cert.HostChain.prop40 (F := Ideal) (m ((c : Thread nD τ).loc main_arg1)) (m ((c : Thread nD τ).loc main_arg2)) (fun i => Cert.Spec.G1At
          (Cert.HostChain.prop64 (F := Ideal) (m ((c : Thread nD τ).loc main_arg1)) (m ((c : Thread nD τ).loc main_arg2)) (fun i => Cert.Spec.G0At (m ((c : Thread nD τ).loc main_arg0)) (m ((c : Thread nD τ).loc main_arg3)) (i 0) (i 1)))
          (shapeCast S1x64 (m ((c : Thread nD τ).loc main_arg4)) shapeCasts_S64_S1x64) (m ((c : Thread nD τ).loc main_arg5)) (i 0) (i 1)) := by
  refine (W7_v62 m ρ c).trans ?_
  rw [W6_v3, W6_v6, W6_v33, W5_v3, W5_v6, W5_v33, W4_v3, W4_v6, W4_v33, W3_v3, W3_v6, W3_v33, h2_eq]
  rfl

/-- Its second operand: the second bias as a row. -/
theorem V7_v63 (c : Dev nD) : V7 m ρ c main_v63 = shapeCast S1x40 (m ((c : Thread nD τ).loc main_arg6)) shapeCasts_S40_S1x40 := by
  refine (W7_v63 m ρ c).trans ?_
  rw [W6_arg6, W5_arg6, W4_arg6, W3_arg6]

/-- The program's result is `out` of the arguments. -/
theorem result_eq (c : Dev nD) :
    W8 m ρ c (Proc.devRef .tc main_v64) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W8_v64, Cert.KernelIdeal.Region2.final2 (V7 m ρ) c, V7_v62, V7_v63]
  rfl

/-- Every weakly fair execution of the idealized kernel terminates, nothing faulting, with the result array at `out` of
    the arguments and the arguments as launched. -/
theorem run : θ_run defs (onTc (τ := τ) (main (F := Ideal))) ⟨m, fun _ => 0, ρ⟩ (fun r => ∀ c : Dev nD,
      r.2.mem ((c.tc : Thread nD τ).loc main_v64) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.RunValue.run_result (F := Ideal) m ρ)

end Cert.KernelIdeal.Value

end
-- ==== Proof.RefModel.lean ====
/-
  The reference program's dense stages as functions of whole arrays, and the whole reference as their composition with
  the shared host chain: the product of the node features with the first weight matrix; a propagation step; the bias
  added and the result clipped at zero; the product with the second weight matrix; a second propagation step; the second
  bias added; and the row-wise log-softmax in the form "entry minus row maximum, minus the logarithm of the row's sum of
  exponentials of (entry minus row maximum)".
-/
import proofs.«122044_j11776800326009_2_alg».proof.Proof.HostChain

noncomputable section

namespace Cert.RefModel

open Cert.ReferenceIdeal Idealize.ShloMosaic Cert.HostChain

variable {F : FTy → Type} [FloatOps F] [Facts₀]

open Facts₀

/-- The node features times the first weight matrix. -/
def hidden1 (x0 : FVec F S100000x256 .f32) (x3 : FVec F S256x64 .f32) : FVec F S100000x64 .f32 :=
  Host.dotGeneral dot_S100000x256_S256x64_S100000x64_1_0_0_1_n_n none x0 x3

/-- The bias vector added to every row, the result clipped at zero. -/
def biasRelu (a : FVec F S100000x64 .f32) (x4 : FVec F S64 .f32) : FVec F S100000x64 .f32 :=
  maximumf (addf a (broadcastInDim S100000x64 ![0, 1] bcast_S1x64_S100000x64_0_1 (broadcastInDim S1x64 ![1] bcast_S64_S1x64_1 x4)))
    (broadcastInDim S100000x64 ![] bcast_S_S100000x64 (constant S_ .f32 0x00000000#32))

/-- The clipped, biased array times the second weight matrix. -/
def hidden2 (a : FVec F S100000x64 .f32) (x4 : FVec F S64 .f32) (x5 : FVec F S64x40 .f32) : FVec F S100000x40 .f32 :=
  Host.dotGeneral dot_S100000x64_S64x40_S100000x40_1_0_0_1_n_n none (biasRelu a x4) x5

/-- The second bias vector added to every row. -/
def logits (a : FVec F S100000x40 .f32) (x6 : FVec F S40 .f32) : FVec F S100000x40 .f32 :=
  addf a (broadcastInDim S100000x40 ![0, 1] bcast_S1x40_S100000x40_0_1 (broadcastInDim S1x40 ![1] bcast_S40_S1x40_1 x6))

/-- Each row's maximum (folded from minus infinity, and once more against minus infinity). -/
def rowMaxes (z : FVec F S100000x40 .f32) : FVec F S100000 .f32 :=
  maximumf (broadcastInDim S100000 ![] bcast_S_S100000 (constant S_ .f32 0xFF800000#32))
    (Host.reduce FloatOps.maximumf z (constant S_ .f32 0xFF800000#32) reducesTo_S100000x40_S100000_d1 h_S_)

/-- Each entry less its row's maximum. -/
def shifted (z : FVec F S100000x40 .f32) : FVec F S100000x40 .f32 :=
  subf z (broadcastInDim S100000x40 ![0, 1] bcast_S100000x1_S100000x40_0_1 (broadcastInDim S100000x1 ![0] bcast_S100000_S100000x1_0 (rowMaxes z)))

/-- The logarithm of each row's sum of exponentials of the shifted entries, as a column. -/
def logSums (z : FVec F S100000x40 .f32) : FVec F S100000x1 .f32 :=
  Host.log (broadcastInDim S100000x1 ![0] bcast_S100000_S100000x1_0
    (Host.reduceAdd (Host.exp (shifted z)) (constant S_ .f32 0x00000000#32) reducesTo_S100000x40_S100000_d1 h_S_))

/-- The row-wise log-softmax. -/
def logSoftmax (z : FVec F S100000x40 .f32) : FVec F S100000x40 .f32 :=
  subf (shifted z) (broadcastInDim S100000x40 ![0, 1] bcast_S100000x1_S100000x40_0_1 (logSums z))

/-- The whole reference: what it returns, as a function of its seven arguments. -/
def out (x0 : FVec F S100000x256 .f32) (x1 : IVec S2x1600000 32) (x2 : FVec F S1600000 .f32) (x3 : FVec F S256x64 .f32)
    (x4 : FVec F S64 .f32) (x5 : FVec F S64x40 .f32) (x6 : FVec F S40 .f32) : FVec F S100000x40 .f32 :=
  logSoftmax (logits (prop40 x1 x2 (hidden2 (prop64 x1 x2 (hidden1 x0 x3)) x4 x5)) x6)

end Cert.RefModel

end
-- ==== Proof.RefRun.lean ====
/-
  THE REFERENCE PROGRAM'S RUN, READ STRETCH BY STRETCH. The reference's @main is a line of 103 host operations. Cut
  into four consecutive stretches, with the buffer contents at each cut left as a variable, each stretch leaves in the
  buffers the next one reads a named function of what it found: the first, the entries' sources, targets and
  normalisations (the shared host chain) of the edge list and weights; the second, the second dense stage of the first
  propagation of the first dense stage; the third, the second bias added to the second propagation; the fourth, the
  row-wise log-softmax. Run end to end from the launch contents they compose to the whole reference as one function
  of its seven arguments, which no operation writes.
-/
import proofs.«122044_j11776800326009_2_alg».proof.Proof.RunP
import proofs.«122044_j11776800326009_2_alg».proof.Proof.RefModel
import Idealize.ShloMosaic.Lib.StableHlo.Run
import Idealize.ShloMosaic.PureOps.Ideal

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Operations run from a list that is two lists end to end: the first list's run, then the second's from there. -/
theorem after_append (A B : List (HloOp τ sig (Elt F))) (V : Valuation τ sig (Elt F)) : after (A ++ B) V = after B (after A V) := by
  induction A generalizing V with
  | nil => rfl
  | cons op A ih => exact ih (op.result V)

/-- Contents moved to a buffer's own type and back are the contents. -/
theorem ofBuf_toBuf {T : BufTy} (x : TRef sig T) (v : T.Contents (Elt F)) : x.ofBuf (x.toBuf v) = v := by
  obtain ⟨r, h, hd, hu⟩ := x
  subst h
  rfl
/-- Operations 1 to 45: the entries' sources and targets (the edge list with a self-loop per node), their weights, the degrees, their inverse square roots, and the entries' normalisations. -/
def opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x0DA24260#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v3 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v20 (broadcastInDim S1700000 ![] bcast_S_S1700000 : (⟨S_, .i32⟩ : BufTy).Contents (Elt F) → (⟨S1700000, .i32⟩ : BufTy).Contents (Elt F)),
    binary main_v3 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v8 main_v25 (mulf : (⟨S1700000, .f32⟩ : BufTy).Contents (Elt F) → (⟨S1700000, .f32⟩ : BufTy).Contents (Elt F) → (⟨S1700000, .f32⟩ : BufTy).Contents (Elt F)),
    nullary main_c_5 (constantI S_ 32 0#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v28 (broadcastInDim S1700000 ![] bcast_S_S1700000 : (⟨S_, .i32⟩ : BufTy).Contents (Elt F) → (⟨S1700000, .i32⟩ : BufTy).Contents (Elt F)),
    binary main_v6 main_v28 main_v29 (addi : (⟨S1700000, .i32⟩ : BufTy).Contents (Elt F) → (⟨S1700000, .i32⟩ : BufTy).Contents (Elt F) → (⟨S1700000, .i32⟩ : BufTy).Contents (Elt F)),
    ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v30 main_v31 (broadcastInDim S1700000x1 ![0] bcast_S1700000_S1700000x1_0 : (⟨S1700000, .i32⟩ : BufTy).Contents (Elt F) → (⟨S1700000x1, .i32⟩ : BufTy).Contents (Elt F)),
    binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v32 main_v33 (mulf : (⟨S1700000, .f32⟩ : BufTy).Contents (Elt F) → (⟨S1700000, .f32⟩ : BufTy).Contents (Elt F) → (⟨S1700000, .f32⟩ : BufTy).Contents (Elt F)) ]
set_option maxRecDepth 8192 in
set_option maxHeartbeats 4000000 in
/-- After the first stretch main_v3 holds the entries' sources, -/
theorem stageA_v3 (W : Valuation τ sig (Elt F)) :
    after (opsA (F := F)) W (Proc.devRef .tc main_v3) = Cert.HostChain.ends0 (W (Proc.devRef .tc main_arg1)) := by
  unfold opsA
  after_results_simp
  rfl
set_option maxRecDepth 8192 in
set_option maxHeartbeats 4000000 in
/-- main_v6 their targets, -/
theorem stageA_v6 (W : Valuation τ sig (Elt F)) :
    after (opsA (F := F)) W (Proc.devRef .tc main_v6) = Cert.HostChain.ends1 (W (Proc.devRef .tc main_arg1)) := by
  unfold opsA
  after_results_simp
  rfl
set_option maxRecDepth 8192 in
set_option maxHeartbeats 4000000 in
/-- and main_v33 their normalisations. -/
theorem stageA_v33 (W : Valuation τ sig (Elt F)) :
    after (opsA (F := F)) W (Proc.devRef .tc main_v33) = Cert.HostChain.norm (F := F) (W (Proc.devRef .tc main_arg1)) (W (Proc.devRef .tc main_arg2)) := by
  unfold opsA
  after_results_simp
  simp only [ofBuf_toBuf]
  rfl
set_option maxRecDepth 8192 in
set_option maxHeartbeats 4000000 in
theorem stageA_keep_main_arg0 (W : Valuation τ sig (Elt F)) :
    after (opsA (F := F)) W (Proc.devRef .tc main_arg0) = W (Proc.devRef .tc main_arg0) := by
  unfold opsA
  after_results_simp
set_option maxRecDepth 8192 in
set_option maxHeartbeats 4000000 in
theorem stageA_keep_main_arg3 (W : Valuation τ sig (Elt F)) :
    after (opsA (F := F)) W (Proc.devRef .tc main_arg3) = W (Proc.devRef .tc main_arg3) := by
  unfold opsA
  after_results_simp
set_option maxRecDepth 8192 in
set_option maxHeartbeats 4000000 in
theorem stageA_keep_main_arg4 (W : Valuation τ sig (Elt F)) :
    after (opsA (F := F)) W (Proc.devRef .tc main_arg4) = W (Proc.devRef .tc main_arg4) := by
  unfold opsA
  after_results_simp
set_option maxRecDepth 8192 in
set_option maxHeartbeats 4000000 in
theorem stageA_keep_main_arg5 (W : Valuation τ sig (Elt F)) :
    after (opsA (F := F)) W (Proc.devRef .tc main_arg5) = W (Proc.devRef .tc main_arg5) := by
  unfold opsA
  after_results_simp
set_option maxRecDepth 8192 in
set_option maxHeartbeats 4000000 in
theorem stageA_keep_main_arg6 (W : Valuation τ sig (Elt F)) :
    after (opsA (F := F)) W (Proc.devRef .tc main_arg6) = W (Proc.devRef .tc main_arg6) := by
  unfold opsA
  after_results_simp
/-- Operations 46 to 69: the first dense product, the first propagation step, the first bias, the clip at zero and the second dense product. -/
def opsB : List (HloOp τ sig (Elt F)) :=
  [ binary main_arg0 main_arg3 main_v34 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_c_7 (constantI S_ 32 0#32),
    unary main_c_7 main_v35 (broadcastInDim S1700000 ![] bcast_S_S1700000 : (⟨S_, .i32⟩ : BufTy).Contents (Elt F) → (⟨S1700000, .i32⟩ : BufTy).Contents (Elt F)),
    binary main_v3 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v37 (broadcastInDim S1700000 ![] bcast_S_S1700000 : (⟨S_, .i32⟩ : BufTy).Contents (Elt F) → (⟨S1700000, .i32⟩ : BufTy).Contents (Elt F)),
    binary main_v3 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v34 main_v40 main_v41 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v33 main_v42 (broadcastInDim S1700000x1 ![0] bcast_S1700000_S1700000x1_0 : (⟨S1700000, .f32⟩ : BufTy).Contents (Elt F) → (⟨S1700000x1, .f32⟩ : BufTy).Contents (Elt F)),
    unary main_v42 main_v43 (broadcastInDim S1700000x64 ![0, 1] bcast_S1700000x1_S1700000x64_0_1 : (⟨S1700000x1, .f32⟩ : BufTy).Contents (Elt F) → (⟨S1700000x64, .f32⟩ : BufTy).Contents (Elt F)),
    binary main_v41 main_v43 main_v44 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v45 (broadcastInDim S100000x64 ![] bcast_S_S100000x64 : (⟨S_, .f32⟩ : BufTy).Contents (Elt F) → (⟨S100000x64, .f32⟩ : BufTy).Contents (Elt F)),
    unary main_v6 main_v46 (broadcastInDim S1700000x1 ![0] bcast_S1700000_S1700000x1_0 : (⟨S1700000, .i32⟩ : BufTy).Contents (Elt F) → (⟨S1700000x1, .i32⟩ : BufTy).Contents (Elt F)),
    ternary main_v45 main_v46 main_v44 main_v47 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v48 (broadcastInDim S1x64 ![1] bcast_S64_S1x64_1 : (⟨S64, .f32⟩ : BufTy).Contents (Elt F) → (⟨S1x64, .f32⟩ : BufTy).Contents (Elt F)),
    unary main_v48 main_v49 (broadcastInDim S100000x64 ![0, 1] bcast_S1x64_S100000x64_0_1 : (⟨S1x64, .f32⟩ : BufTy).Contents (Elt F) → (⟨S100000x64, .f32⟩ : BufTy).Contents (Elt F)),
    binary main_v47 main_v49 main_v50 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v50) (TRef.of (T := ⟨S100000x64, .f32⟩) main_call1_v0) (TRef.of (T := ⟨S100000x64, .f32⟩) main_v51) maximumf,
    binary main_v51 main_arg5 main_v52 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) ]
set_option maxRecDepth 8192 in
set_option maxHeartbeats 4000000 in
/-- After the second stretch main_v52 holds the second dense stage of the first propagation of the first dense stage. -/
theorem stageB_v52 (W : Valuation τ sig (Elt F)) :
    after (opsB (F := F)) W (Proc.devRef .tc main_v52)
      = Cert.RefModel.hidden2 (F := F)
          (Cert.HostChain.propagate64 (F := F) (W (Proc.devRef .tc main_v3)) (W (Proc.devRef .tc main_v6)) (W (Proc.devRef .tc main_v33))
            (Cert.RefModel.hidden1 (F := F) (W (Proc.devRef .tc main_arg0)) (W (Proc.devRef .tc main_arg3))))
          (W (Proc.devRef .tc main_arg4)) (W (Proc.devRef .tc main_arg5)) := by
  unfold opsB
  after_results_simp
  simp only [ofBuf_toBuf]
  rfl
set_option maxRecDepth 8192 in
set_option maxHeartbeats 4000000 in
theorem stageB_keep_main_v3 (W : Valuation τ sig (Elt F)) :
    after (opsB (F := F)) W (Proc.devRef .tc main_v3) = W (Proc.devRef .tc main_v3) := by
  unfold opsB
  after_results_simp
set_option maxRecDepth 8192 in
set_option maxHeartbeats 4000000 in
theorem stageB_keep_main_v6 (W : Valuation τ sig (Elt F)) :
    after (opsB (F := F)) W (Proc.devRef .tc main_v6) = W (Proc.devRef .tc main_v6) := by
  unfold opsB
  after_results_simp
set_option maxRecDepth 8192 in
set_option maxHeartbeats 4000000 in
theorem stageB_keep_main_v33 (W : Valuation τ sig (Elt F)) :
    after (opsB (F := F)) W (Proc.devRef .tc main_v33) = W (Proc.devRef .tc main_v33) := by
  unfold opsB
  after_results_simp
set_option maxRecDepth 8192 in
set_option maxHeartbeats 4000000 in
theorem stageB_keep_main_arg6 (W : Valuation τ sig (Elt F)) :
    after (opsB (F := F)) W (Proc.devRef .tc main_arg6) = W (Proc.devRef .tc main_arg6) := by
  unfold opsB
  after_results_simp
/-- Operations 70 to 88: the second propagation step and the second bias. -/
def opsC : List (HloOp τ sig (Elt F)) :=
  [ nullary main_c_10 (constantI S_ 32 0#32),
    unary main_c_10 main_v53 (broadcastInDim S1700000 ![] bcast_S_S1700000 : (⟨S_, .i32⟩ : BufTy).Contents (Elt F) → (⟨S1700000, .i32⟩ : BufTy).Contents (Elt F)),
    binary main_v3 main_v53 main_v54 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v55 (broadcastInDim S1700000 ![] bcast_S_S1700000 : (⟨S_, .i32⟩ : BufTy).Contents (Elt F) → (⟨S1700000, .i32⟩ : BufTy).Contents (Elt F)),
    binary main_v3 main_v55 main_v56 (addi : (⟨S1700000, .i32⟩ : BufTy).Contents (Elt F) → (⟨S1700000, .i32⟩ : BufTy).Contents (Elt F) → (⟨S1700000, .i32⟩ : BufTy).Contents (Elt F)),
    ternary main_v54 main_v56 main_v3 main_v57 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v57 main_v58 (broadcastInDim S1700000x1 ![0] bcast_S1700000_S1700000x1_0 : (⟨S1700000, .i32⟩ : BufTy).Contents (Elt F) → (⟨S1700000x1, .i32⟩ : BufTy).Contents (Elt F)),
    binary main_v52 main_v58 main_v59 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v33 main_v60 (broadcastInDim S1700000x1 ![0] bcast_S1700000_S1700000x1_0 : (⟨S1700000, .f32⟩ : BufTy).Contents (Elt F) → (⟨S1700000x1, .f32⟩ : BufTy).Contents (Elt F)),
    unary main_v60 main_v61 (broadcastInDim S1700000x40 ![0, 1] bcast_S1700000x1_S1700000x40_0_1 : (⟨S1700000x1, .f32⟩ : BufTy).Contents (Elt F) → (⟨S1700000x40, .f32⟩ : BufTy).Contents (Elt F)),
    binary main_v59 main_v61 main_v62 (mulf : (⟨S1700000x40, .f32⟩ : BufTy).Contents (Elt F) → (⟨S1700000x40, .f32⟩ : BufTy).Contents (Elt F) → (⟨S1700000x40, .f32⟩ : BufTy).Contents (Elt F)),
    nullary main_cst_12 (constant S_ .f32 0x00000000#32),
    unary main_cst_12 main_v63 (broadcastInDim S100000x40 ![] bcast_S_S100000x40 : (⟨S_, .f32⟩ : BufTy).Contents (Elt F) → (⟨S100000x40, .f32⟩ : BufTy).Contents (Elt F)),
    unary main_v6 main_v64 (broadcastInDim S1700000x1 ![0] bcast_S1700000_S1700000x1_0 : (⟨S1700000, .i32⟩ : BufTy).Contents (Elt F) → (⟨S1700000x1, .i32⟩ : BufTy).Contents (Elt F)),
    ternary main_v63 main_v64 main_v62 main_v65 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg6 main_v66 (broadcastInDim S1x40 ![1] bcast_S40_S1x40_1 : (⟨S40, .f32⟩ : BufTy).Contents (Elt F) → (⟨S1x40, .f32⟩ : BufTy).Contents (Elt F)),
    unary main_v66 main_v67 (broadcastInDim S100000x40 ![0, 1] bcast_S1x40_S100000x40_0_1 : (⟨S1x40, .f32⟩ : BufTy).Contents (Elt F) → (⟨S100000x40, .f32⟩ : BufTy).Contents (Elt F)),
    binary main_v65 main_v67 main_v68 (addf : (⟨S100000x40, .f32⟩ : BufTy).Contents (Elt F) → (⟨S100000x40, .f32⟩ : BufTy).Contents (Elt F) → (⟨S100000x40, .f32⟩ : BufTy).Contents (Elt F)) ]
set_option maxRecDepth 8192 in
set_option maxHeartbeats 4000000 in
/-- After the third stretch main_v68 holds the second bias added to the propagation, over the entries the stretch
    found in main_v3 (sources), main_v6 (targets) and main_v33 (normalisations), of what it found in main_v52. -/
theorem stageC_v68 (W : Valuation τ sig (Elt F)) :
    after (opsC (F := F)) W (Proc.devRef .tc main_v68)
      = Cert.RefModel.logits (F := F)
          (Cert.HostChain.propagate40 (F := F) (W (Proc.devRef .tc main_v3)) (W (Proc.devRef .tc main_v6)) (W (Proc.devRef .tc main_v33)) (W (Proc.devRef .tc main_v52)))
          (W (Proc.devRef .tc main_arg6)) := by
  unfold opsC
  after_results_simp
  rfl
/-- Operations 89 to 103: the row-wise log-softmax. -/
def opsD : List (HloOp τ sig (Elt F)) :=
  [ TRef.nullary (TRef.of (T := ⟨S_, .f32⟩) main_call2_cst) (constant S_ .f32 0xFF800000#32),
    TRef.binary (TRef.of (T := ⟨S100000x40, .f32⟩) main_v68) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v68) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v69) subf ]
set_option maxRecDepth 8192 in
set_option maxHeartbeats 4000000 in
/-- After the last stretch the result holds the row-wise log-softmax of what the stretch found in main_v68. -/
theorem stageD_v69 (W : Valuation τ sig (Elt F)) :
    after (opsD (F := F)) W (Proc.devRef .tc main_v69) = Cert.RefModel.logSoftmax (F := F) (W (Proc.devRef .tc main_v68)) := by
  unfold opsD
  after_results_simp
  simp only [ofBuf_toBuf]
  rfl

/-- The 103 operations are the four stretches end to end. -/
theorem ops_split : (ops (F := F)) = opsA ++ (opsB ++ (opsC ++ opsD)) := rfl

/-- THE REFERENCE'S VALUE: from the launch contents, the 103 operations leave in the result the row-wise log-softmax
    of the second bias added to the second propagation of the second dense stage of the first propagation of the first
    dense stage of the arguments. -/
theorem value (m : (ℓ : Loc nD τ sig) → Buf (Elt F) ℓ) (c : Dev nD) :
    after (ops (F := F)) (launchContents m c) (Proc.devRef .tc main_v69)
      = Cert.RefModel.out (F := F) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6)) := by
  rw [ops_split, after_append, after_append, after_append,
    stageD_v69, stageC_v68, stageB_v52, stageB_keep_main_v3, stageB_keep_main_v6, stageB_keep_main_v33, stageB_keep_main_arg6,
    stageA_v3, stageA_v6, stageA_v33, stageA_keep_main_arg0, stageA_keep_main_arg3, stageA_keep_main_arg4, stageA_keep_main_arg5,
    stageA_keep_main_arg6]
  rfl

set_option maxRecDepth 8192 in
set_option maxHeartbeats 4000000 in
/-- No operation writes argument 0: it is as launched. -/
theorem kept_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 8192 in
set_option maxHeartbeats 4000000 in
/-- No operation writes argument 1: it is as launched. -/
theorem kept_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxRecDepth 8192 in
set_option maxHeartbeats 4000000 in
/-- No operation writes argument 2: it is as launched. -/
theorem kept_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxRecDepth 8192 in
set_option maxHeartbeats 4000000 in
/-- No operation writes argument 3: it is as launched. -/
theorem kept_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxRecDepth 8192 in
set_option maxHeartbeats 4000000 in
/-- No operation writes argument 4: it is as launched. -/
theorem kept_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxRecDepth 8192 in
set_option maxHeartbeats 4000000 in
/-- No operation writes argument 5: it is as launched. -/
theorem kept_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxRecDepth 8192 in
set_option maxHeartbeats 4000000 in
/-- No operation writes argument 6: it is as launched. -/
theorem kept_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl

/-- THE RUN, READ: every weakly fair execution of the reference terminates with the result at `Cert.RefModel.out` of
    the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69)
          = Cert.RefModel.out (F := F) (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v69).trans (value m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c)⟩)
    (run_after m ρ)

end Cert.ReferenceIdeal.RefRun

end
-- ==== Proof.LibRealDef.lean ====
/-
  A vector of extended reals is REAL-VALUED when every entry is a real number (neither infinity).
  Finite sums, products, maxima and reads at an index of real-valued vectors are real-valued; the lemmas
  that say so for each operation are in LibRealValued.lean.
-/
import Idealize.ShloMosaic.PureOps.Ideal

namespace Cert.RealValued

/-- Every entry of `v` is (the coercion of) a real number. -/
def IsReal {ι : Type} (v : ι → EReal) : Prop := ∀ i, ∃ r : ℝ, v i = (r : EReal)

theorem IsReal.ne_top {ι : Type} {v : ι → EReal} (h : IsReal v) (i : ι) : v i ≠ ⊤ := by
  obtain ⟨r, hr⟩ := h i; rw [hr]; exact EReal.coe_ne_top r

theorem IsReal.ne_bot {ι : Type} {v : ι → EReal} (h : IsReal v) (i : ι) : v i ≠ ⊥ := by
  obtain ⟨r, hr⟩ := h i; rw [hr]; exact EReal.coe_ne_bot r

/-- Reading a real-valued vector through any index map gives a real-valued vector. -/
theorem IsReal.comp {ι κ : Type} {v : ι → EReal} (h : IsReal v) (f : κ → ι) : IsReal (fun k => v (f k)) :=
  fun k => h (f k)

end Cert.RealValued
-- ==== Proof.LibRealValued.lean ====
/-
  Real-valued vectors of extended reals are closed under the operations of a graph-convolution pipeline.

  A vector of extended reals is real-valued when no entry is an infinity.  The real numbers inside the
  extended reals are closed under sum, difference, product, maximum and finite sums, so every pointwise
  arithmetic operation, every scatter-add and every matrix product of real-valued vectors is real-valued;
  an operation that only READS its operand at some index (gather, broadcast, reshape, slice, transpose,
  concatenation, a lane-by-lane choice between two vectors) is real-valued whenever its operands are; and the
  reciprocal square root of `max x c` is real-valued when `x` is and `c` is a positive real constant, since
  the maximum is then a positive real number.
-/
import proofs.«122044_j11776800326009_2_alg».proof.Proof.LibRealDef
import Idealize.ShloMosaic.PureOps.Ideal
import Idealize.ShloMosaic.PureOps.Ideal.Laws

namespace Cert.RealValued

open Idealize.ShloMosaic

/-! ### The real numbers inside the extended reals are closed under sum, product, difference, maximum -/

/-- The sum of two real numbers is a real number. -/
theorem real_add {a b : EReal} (ha : ∃ r : ℝ, a = r) (hb : ∃ r : ℝ, b = r) : ∃ r : ℝ, a + b = r := by
  obtain ⟨r, rfl⟩ := ha; obtain ⟨q, rfl⟩ := hb; exact ⟨r + q, (EReal.coe_add r q).symm⟩

/-- The product of two real numbers is a real number. -/
theorem real_mul {a b : EReal} (ha : ∃ r : ℝ, a = r) (hb : ∃ r : ℝ, b = r) : ∃ r : ℝ, a * b = r := by
  obtain ⟨r, rfl⟩ := ha; obtain ⟨q, rfl⟩ := hb; exact ⟨r * q, (EReal.coe_mul r q).symm⟩

/-- The difference of two real numbers is a real number. -/
theorem real_sub {a b : EReal} (ha : ∃ r : ℝ, a = r) (hb : ∃ r : ℝ, b = r) : ∃ r : ℝ, a - b = r := by
  obtain ⟨r, rfl⟩ := ha; obtain ⟨q, rfl⟩ := hb; exact ⟨r - q, (EReal.coe_sub r q).symm⟩

/-- The maximum of two real numbers is one of them, hence a real number. -/
theorem real_max {a b : EReal} (ha : ∃ r : ℝ, a = r) (hb : ∃ r : ℝ, b = r) : ∃ r : ℝ, max a b = r := by
  rcases max_choice a b with h | h <;> rw [h]
  exacts [ha, hb]

/-- A finite sum of real numbers is a real number (induction on the index set). -/
theorem real_sum {ι : Type} (t : Finset ι) (f : ι → EReal) (hf : ∀ i ∈ t, ∃ r : ℝ, f i = r) :
    ∃ r : ℝ, ∑ i ∈ t, f i = r := by
  classical
  induction t using Finset.induction_on with
  | empty => exact ⟨0, by simp⟩
  | insert a t ha ih =>
    rw [Finset.sum_insert ha]
    exact real_add (hf a (Finset.mem_insert_self a t)) (ih fun i hi => hf i (Finset.mem_insert_of_mem hi))

variable {s t : Shape} {φ : FTy}

/-! ### Pointwise arithmetic -/

/-- The pointwise sum of real-valued vectors is real-valued. -/
theorem isReal_addf {x y : FVec Ideal s φ} (hx : IsReal x) (hy : IsReal y) : IsReal (addf x y) :=
  fun i => real_add (hx i) (hy i)

/-- The pointwise difference of real-valued vectors is real-valued. -/
theorem isReal_subf {x y : FVec Ideal s φ} (hx : IsReal x) (hy : IsReal y) : IsReal (subf x y) :=
  fun i => real_sub (hx i) (hy i)

/-- The pointwise product of real-valued vectors is real-valued. -/
theorem isReal_mulf {x y : FVec Ideal s φ} (hx : IsReal x) (hy : IsReal y) : IsReal (mulf x y) :=
  fun i => real_mul (hx i) (hy i)

/-- The pointwise maximum of real-valued vectors is real-valued. -/
theorem isReal_maximumf {x y : FVec Ideal s φ} (hx : IsReal x) (hy : IsReal y) : IsReal (maximumf x y) :=
  fun i => real_max (hx i) (hy i)

/-- A lane-by-lane choice between two real-valued vectors is real-valued, whatever the condition. -/
theorem isReal_select (c : IVec s 1) {a b : s.Idx → EReal} (ha : IsReal a) (hb : IsReal b) :
    IsReal (select c a b) := fun i => by
  show ∃ r : ℝ, (if c i = 1 then a i else b i) = r
  split_ifs
  exacts [ha i, hb i]

/-! ### Operations that read their operand at an index -/

/-- A gather reads its operand at an index: real-valued when the operand is, whatever the indices. -/
theorem isReal_gather {si : Shape} {w : Nat} (d : GatherDims s si t) {x : s.Idx → EReal} (idx : IVec si w)
    (hx : IsReal x) : IsReal (Host.gather d x idx) := fun _ => hx _

/-- A broadcast reads its operand at an index. -/
theorem isReal_broadcastInDim (dims : Fin s.rank → Fin t.rank) (h : s.BroadcastsInDim t dims) {x : s.Idx → EReal}
    (hx : IsReal x) : IsReal (broadcastInDim t dims h x) := fun _ => hx _

/-- A reshape reads its operand at an index. -/
theorem isReal_shapeCast (h : s.ShapeCasts t) {x : s.Idx → EReal} (hx : IsReal x) :
    IsReal (shapeCast t x h) := fun _ => hx _

/-- A slice reads its operand at an index. -/
theorem isReal_extractStridedSlice (off : Fin s.rank → Nat) (h : s.Slices off t) {x : s.Idx → EReal} (hx : IsReal x) :
    IsReal (extractStridedSlice t off x h) := fun _ => hx _

/-- A transpose reads its operand at an index. -/
theorem isReal_transpose (perm : List (Fin s.rank)) (h : s.Transposes perm t) {x : s.Idx → EReal} (hx : IsReal x) :
    IsReal (transpose t perm x h) := fun _ => hx _

/-- Each entry of a concatenation is an entry of one of the pieces: real-valued when every piece is. -/
theorem isReal_concatenate (a : Fin t.rank) (xs : List ((s : Shape) × (s.Idx → EReal)))
    (h : Shape.Concatenates (xs.map (·.1)) t a) (hx : ∀ p ∈ xs, IsReal p.2) :
    IsReal (concatenate t a xs h) := fun j => by
  simp only [concatenate]
  exact hx _ (List.getElem_mem _) _

/-- The concatenation of two real-valued vectors is real-valued. -/
theorem isReal_concatenate2 {s1 s2 : Shape} (ax : Fin t.rank) {a : s1.Idx → EReal} {b : s2.Idx → EReal}
    (h : Shape.Concatenates [s1, s2] t ax) (ha : IsReal a) (hb : IsReal b) :
    IsReal (concatenate t ax [⟨s1, a⟩, ⟨s2, b⟩] h) :=
  isReal_concatenate ax [⟨s1, a⟩, ⟨s2, b⟩] h (by
    intro p hp
    simp only [List.mem_cons, List.mem_singleton, List.not_mem_nil, or_false] at hp
    rcases hp with rfl | rfl
    exacts [ha, hb])

/-! ### Sums: scatter-add and matrix product -/

/-- A scatter-add entry is the operand's entry plus a finite sum of update entries: real-valued when the
    operand and the updates are, whatever the indices. -/
theorem isReal_scatterAdd {si u : Shape} {w : Nat} (d : ScatterDims s si u) {x : FVec Ideal s φ} (idx : IVec si w)
    {upd : FVec Ideal u φ} (hx : IsReal x) (hu : IsReal upd) :
    IsReal (Host.scatterAdd (F := Ideal) d x idx upd) := fun i =>
  real_add (hx i) (real_sum _ _ fun j _ => hu j)

/-- A matrix-product entry is a finite sum of products of entries: real-valued when both factors are. -/
theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral (F := Ideal) d prec l r) := fun j => by
  show ∃ q : ℝ, FloatOps.dotGeneral d prec .single l r j = q
  rw [Ideal.dotGeneral_apply]
  exact real_sum _ _ fun k _ => real_mul (hl _) (hr _)

/-! ### Constants -/

/-- The constant vector of the single-precision zero is real-valued. -/
theorem isReal_constant_zero (s : Shape) : IsReal (constant (F := Ideal) s .f32 0x00000000#32) :=
  fun _ => ⟨0, by show Ideal.ofBits .f32 0x00000000#32 = _; rw [Ideal.ofBits_zero_f32]; rfl⟩

/-- The single-precision pattern `0x3F800000` (exponent field 127, significand zero) is `2^23 · 2^(-23) = 1`. -/
theorem ofBits_one_f32 : Ideal.ofBits .f32 0x3F800000#32 = 1 := by
  have h : Ideal.ofBits .f32 0x3F800000#32 = ((8388608 * (2 ^ 23)⁻¹ : ℝ) : EReal) := by
    simp [Ideal.ofBits, Ideal.ieee]
  rw [h, ← EReal.coe_one]
  congr 1
  norm_num

/-- The constant vector of the single-precision one is real-valued. -/
theorem isReal_constant_one (s : Shape) : IsReal (constant (F := Ideal) s .f32 0x3F800000#32) :=
  fun _ => ⟨1, by show Ideal.ofBits .f32 0x3F800000#32 = _; rw [ofBits_one_f32]; rfl⟩

/-- The single-precision pattern `0x0DA24260` (the nearest to `10^(-30)`: exponent field 27, significand
    `2245216`) is the positive real number `10633824 · 2^(-123)`. -/
theorem tiny_pos : ∃ r : ℝ, 0 < r ∧ Ideal.ofBits .f32 0x0DA24260#32 = (r : EReal) := by
  have h : Ideal.ofBits .f32 0x0DA24260#32 = ((10633824 * (2 ^ 123)⁻¹ : ℝ) : EReal) := by
    simp [Ideal.ofBits, Ideal.ieee]
  exact ⟨_, by positivity, h⟩

/-! ### The reciprocal square root of a maximum with a positive constant -/

/-- For a real `a` and a positive real `c`, `max a c` is a positive real, so its reciprocal square root is the
    real number `(√(max a c))⁻¹`. -/
theorem real_rsqrt_max {a c : EReal} (ha : ∃ r : ℝ, a = r) (hc : ∃ r : ℝ, 0 < r ∧ c = r) :
    ∃ r : ℝ, Ideal.rsqrt (max a c) = r := by
  obtain ⟨r, rfl⟩ := ha
  obtain ⟨q, hq, rfl⟩ := hc
  have hm : max (r : EReal) (q : EReal) = ((max r q : ℝ) : EReal) :=
    (EReal.coe_strictMono.monotone.map_max).symm
  have hpos : 0 < max r q := lt_max_of_lt_right hq
  rw [hm, Ideal.rsqrt_coe, if_neg (not_lt.2 hpos.le), if_neg hpos.ne']
  exact ⟨_, rfl⟩

/-- The reciprocal square root of the pointwise maximum of a real-valued vector with a vector that is
    everywhere one positive real constant is real-valued. -/
theorem isReal_rsqrt_max {x c : FVec Ideal s φ} (hx : IsReal x) (hc : ∃ r : ℝ, 0 < r ∧ ∀ i, c i = (r : EReal)) :
    IsReal (Host.rsqrt (F := Ideal) (maximumf x c)) := fun i => by
  obtain ⟨q, hq, hcq⟩ := hc
  exact real_rsqrt_max (hx i) ⟨q, hq, hcq i⟩

/-- Any broadcast of the constant `0x0DA24260` is everywhere one positive real number. -/
theorem broadcast_tiny (S0 : Shape) (dims : Fin S0.rank → Fin t.rank) (h : S0.BroadcastsInDim t dims) :
    ∃ r : ℝ, 0 < r ∧ ∀ i, broadcastInDim t dims h (constant (F := Ideal) S0 .f32 0x0DA24260#32) i = (r : EReal) := by
  obtain ⟨r, hr, h'⟩ := tiny_pos
  exact ⟨r, hr, fun _ => h'⟩

/-- The reciprocal square root of `max x (10^(-30) broadcast)` is real-valued when `x` is. -/
theorem isReal_rsqrt_max_tiny (S0 : Shape) (dims : Fin S0.rank → Fin t.rank) (h : S0.BroadcastsInDim t dims)
    {x : FVec Ideal t .f32} (hx : IsReal x) :
    IsReal (Host.rsqrt (F := Ideal)
      (maximumf x (broadcastInDim t dims h (constant (F := Ideal) S0 .f32 0x0DA24260#32)))) :=
  isReal_rsqrt_max hx (broadcast_tiny S0 dims h)

end Cert.RealValued
-- ==== Proof.LibLogSoftmax.lean ====
/-
  Extended-real algebra for the last step of a log-softmax.

  With a row `z`, its maximum `m` and `L = log (∑ exp (z_j - m))`, one program ends with
  `z - (m + L)` and another with `(z - m) - L`.  On the extended reals subtraction is
  `x - y = x + -y` with `⊤ + ⊥ = ⊥`, so the two are not equal for arbitrary `z` and `m`; they ARE
  equal when `z` and `m` are real numbers, whatever `L` is.  The maximum of finitely many real
  numbers (at least one), folded from `⊥`, is a real number, which is what makes `m` real.
-/
import Idealize.ShloMosaic.PureOps.Ideal

namespace Cert.LogSoftmax

open Idealize.ShloMosaic

/-- For real `z` and `m` and ANY extended real `L` (either infinity included),
    `z - (m + L) = (z - m) - L`: at `L = ⊥` both sides are `⊤`, at `L = ⊤` both are `⊥`, and at a real
    `L` it is the identity of the reals. -/
theorem sub_add_eq_sub_sub_of_real (z m : ℝ) (L : EReal) :
    (z : EReal) - ((m : EReal) + L) = ((z : EReal) - (m : EReal)) - L := by
  induction L using EReal.rec with
  | bot =>
    rw [EReal.add_bot, EReal.sub_bot (EReal.coe_ne_bot z), ← EReal.coe_sub,
      EReal.sub_bot (EReal.coe_ne_bot _)]
  | top =>
    rw [EReal.add_top_of_ne_bot (EReal.coe_ne_bot m), EReal.sub_top, EReal.sub_top]
  | coe l =>
    rw [← EReal.coe_add, ← EReal.coe_sub, ← EReal.coe_sub, ← EReal.coe_sub, sub_add_eq_sub_sub]

/-- `⊥` is the identity of `max`. -/
theorem max_bot_left (x : EReal) : max ⊥ x = x := bot_sup_eq x

/-- The maximum of `n + 1` real numbers, folded from `⊥`, is a real number: the fold is the supremum of
    the family, and the supremum of a nonempty finite family in a linear order is one of its members. -/
theorem fold_max_real {n : ℕ} (f : Fin (n+1) → EReal) (hf : ∀ k, ∃ r : ℝ, f k = r) :
    ∃ r : ℝ, (Finset.univ : Finset (Fin (n+1))).fold max (⊥ : EReal) f = r := by
  have h : (Finset.univ : Finset (Fin (n+1))).fold max (⊥ : EReal) f = Finset.univ.sup f := rfl
  rw [h]
  obtain ⟨k, -, hk⟩ := Finset.exists_mem_eq_sup (Finset.univ : Finset (Fin (n+1))) Finset.univ_nonempty f
  rw [hk]; exact hf k

/-- The same for a row of 40. -/
theorem fold_max_real_40 (f : Fin 40 → EReal) (hf : ∀ k, ∃ r : ℝ, f k = r) :
    ∃ r : ℝ, (Finset.univ : Finset (Fin 40)).fold max (⊥ : EReal) f = r :=
  fold_max_real (n := 39) f hf

/-- The single-precision pattern `0xFF800000` (sign set, exponent all ones, significand zero) is `-∞`. -/
theorem ofBits_neg_inf : Ideal.ofBits .f32 0xFF800000#32 = (⊥ : EReal) := by
  simp [Ideal.ofBits, Ideal.ieee]

end Cert.LogSoftmax
-- ==== Proof.HostChainReal.lean ====
/-
  The shared host chain carries real-valued arrays to real-valued arrays.

  Every operation of the chain either reads its operand at an index (concatenation, broadcast, gather, a choice between
  two arrays), or is a sum, a product or a finite sum of entries (multiplication, scatter-add), or is the reciprocal
  square root of a maximum with a positive constant; each of these keeps the entries real numbers.  So with real
  edge weights the extended weights, the degrees, their reciprocal square roots, the normalisations, and a
  propagation step of a real-valued feature array are all real-valued, whatever the edge list.
-/
import proofs.«122044_j11776800326009_2_alg».proof.Proof.HostChain
import proofs.«122044_j11776800326009_2_alg».proof.Proof.LibRealValued

namespace Cert.HostChain

open Cert.ReferenceIdeal Cert.RealValued Idealize.ShloMosaic

variable [Facts₀]

open Facts₀

/-- The extended weights (the edge weights followed by ones) are real-valued when the edge weights are. -/
theorem isReal_wts {x2 : FVec Ideal S1600000 .f32} (h2 : IsReal x2) : IsReal (wts (F := Ideal) x2) := by
  unfold wts
  exact isReal_concatenate2 0 concatenates_S1600000_S100000_S1700000_d0 h2
    (isReal_broadcastInDim _ _ (isReal_constant_one _))

/-- The degrees are finite sums of weights. -/
theorem isReal_deg (x1 : IVec S2x1600000 32) {x2 : FVec Ideal S1600000 .f32} (h2 : IsReal x2) :
    IsReal (deg (F := Ideal) x1 x2) := by
  unfold deg
  exact isReal_scatterAdd _ _ (isReal_broadcastInDim _ _ (isReal_constant_zero _)) (isReal_wts h2)

/-- The reciprocal square roots of the degrees (of the maximum with a tiny positive number; zero where the degree is not
    positive) are real-valued. -/
theorem isReal_dinv (x1 : IVec S2x1600000 32) {x2 : FVec Ideal S1600000 .f32} (h2 : IsReal x2) :
    IsReal (dinv (F := Ideal) x1 x2) := by
  unfold dinv
  exact isReal_select _ (isReal_rsqrt_max_tiny S_ _ _ (isReal_deg x1 h2))
    (isReal_broadcastInDim _ _ (isReal_constant_zero _))

/-- The normalisations are products of three real numbers. -/
theorem isReal_norm (x1 : IVec S2x1600000 32) {x2 : FVec Ideal S1600000 .f32} (h2 : IsReal x2) :
    IsReal (norm (F := Ideal) x1 x2) := by
  unfold norm
  exact isReal_mulf (isReal_mulf (isReal_gather _ _ (isReal_dinv x1 h2)) (isReal_wts h2))
    (isReal_gather _ _ (isReal_dinv x1 h2))

/-- A propagation step on 64 features: finite sums of products of real numbers. -/
theorem isReal_propagate64 (sv tv : IVec S1700000 32) {nv : FVec Ideal S1700000 .f32} {h : FVec Ideal S100000x64 .f32}
    (hn : IsReal nv) (hh : IsReal h) : IsReal (propagate64 (F := Ideal) sv tv nv h) := by
  unfold propagate64
  exact isReal_scatterAdd _ _ (isReal_broadcastInDim _ _ (isReal_constant_zero _))
    (isReal_mulf (isReal_gather _ _ hh) (isReal_broadcastInDim _ _ (isReal_broadcastInDim _ _ hn)))

/-- A propagation step on 40 features. -/
theorem isReal_propagate40 (sv tv : IVec S1700000 32) {nv : FVec Ideal S1700000 .f32} {h : FVec Ideal S100000x40 .f32}
    (hn : IsReal nv) (hh : IsReal h) : IsReal (propagate40 (F := Ideal) sv tv nv h) := by
  unfold propagate40
  exact isReal_scatterAdd _ _ (isReal_broadcastInDim _ _ (isReal_constant_zero _))
    (isReal_mulf (isReal_gather _ _ hh) (isReal_broadcastInDim _ _ (isReal_broadcastInDim _ _ hn)))

/-- The step on 64 features over the program's own edge list and weights. -/
theorem isReal_prop64 (x1 : IVec S2x1600000 32) {x2 : FVec Ideal S1600000 .f32} {h : FVec Ideal S100000x64 .f32}
    (h2 : IsReal x2) (hh : IsReal h) : IsReal (prop64 (F := Ideal) x1 x2 h) := by
  unfold prop64
  exact isReal_propagate64 _ _ (isReal_norm x1 h2) hh

/-- The step on 40 features over the program's own edge list and weights. -/
theorem isReal_prop40 (x1 : IVec S2x1600000 32) {x2 : FVec Ideal S1600000 .f32} {h : FVec Ideal S100000x40 .f32}
    (h2 : IsReal x2) (hh : IsReal h) : IsReal (prop40 (F := Ideal) x1 x2 h) := by
  unfold prop40
  exact isReal_propagate40 _ _ (isReal_norm x1 h2) hh

end Cert.HostChain
-- ==== Proof.Bridge.lean ====
/-
  The reference's dense stages are the specification's, entry by entry.

  A matrix product read at an entry is the sum over the contracted positions of the products of the operands' entries.
  A bias vector broadcast over the rows reads, at an entry, the vector's entry at that column.  A reduction along a row
  reads, at a row, the fold (for the maximum) or the sum of the row's entries.  With these the first two dense stages
  are the specification's sums.  The third stage is the log-softmax: the reference computes `(z - m) - log S` and the
  specification `z - (m + log S)`, with `m` the row's maximum and `S` the row's sum of `exp (z_j - m)`; on the extended
  reals these agree when `z` and `m` are real numbers, which holds when the array and the bias are real-valued.
-/
import proofs.«122044_j11776800326009_2_alg».proof.Proof.RefModel
import proofs.«122044_j11776800326009_2_alg».proof.Proof.Spec
import proofs.«122044_j11776800326009_2_alg».proof.Proof.LibRealValued
import proofs.«122044_j11776800326009_2_alg».proof.Proof.LibLogSoftmax
import proofs.«122044_j11776800326009_2_alg».proof.Proof.HostChainReal
import Idealize.ShloMosaic.Lib.ValueIdx
import Idealize.ShloMosaic.Lib.Pipeline.Value
import Idealize.ShloMosaic.Lib.ValueLayout
import Idealize.ShloMosaic.PureOps.Ideal.Laws

namespace Cert.Bridge

open Cert.ReferenceIdeal Cert.RefModel Cert.HostChain Cert.Spec Cert.RealValued Idealize.ShloMosaic Idealize.ShloMosaic.ValueIdx

variable [Facts₀]

open Facts₀

/-! ### The two matrix products read at an entry -/

theorem lhs1_0 (i : S100000x64.Idx) (q : dot_S100000x256_S256x64_S100000x64_1_0_0_1_n_n.contr.Idx) : (dot_S100000x256_S256x64_S100000x64_1_0_0_1_n_n.lhsIdx i q 0).val = (i 0).val := by
  unfold DotDims.lhsIdx
  rw [dif_neg (show ¬(0 : Fin S100000x256.rank) ∈ dot_S100000x256_S256x64_S100000x64_1_0_0_1_n_n.lhsBatch from List.not_mem_nil),
    dif_pos (show (0 : Fin S100000x256.rank) ∈ dot_S100000x256_S256x64_S100000x64_1_0_0_1_n_n.lhsNonContracting from List.mem_singleton.mpr rfl)]
  rfl
theorem lhs1_1 (i : S100000x64.Idx) (q : dot_S100000x256_S256x64_S100000x64_1_0_0_1_n_n.contr.Idx) (h : 0 < dot_S100000x256_S256x64_S100000x64_1_0_0_1_n_n.contr.rank) :
    (dot_S100000x256_S256x64_S100000x64_1_0_0_1_n_n.lhsIdx i q 1).val = (q ⟨0, h⟩).val :=
  dot_S100000x256_S256x64_S100000x64_1_0_0_1_n_n.lhsIdx_val_of_single rfl i q
theorem rhs1_0 (i : S100000x64.Idx) (q : dot_S100000x256_S256x64_S100000x64_1_0_0_1_n_n.contr.Idx) (h : 0 < dot_S100000x256_S256x64_S100000x64_1_0_0_1_n_n.contr.rank) :
    (dot_S100000x256_S256x64_S100000x64_1_0_0_1_n_n.rhsIdx i q 0).val = (q ⟨0, h⟩).val :=
  dot_S100000x256_S256x64_S100000x64_1_0_0_1_n_n.rhsIdx_val_of_single rfl i q
theorem rhs1_1 (i : S100000x64.Idx) (q : dot_S100000x256_S256x64_S100000x64_1_0_0_1_n_n.contr.Idx) : (dot_S100000x256_S256x64_S100000x64_1_0_0_1_n_n.rhsIdx i q 1).val = (i 1).val := by
  unfold DotDims.rhsIdx
  rw [dif_neg (show ¬(1 : Fin S256x64.rank) ∈ dot_S100000x256_S256x64_S100000x64_1_0_0_1_n_n.rhsBatch from List.not_mem_nil),
    dif_pos (show (1 : Fin S256x64.rank) ∈ dot_S100000x256_S256x64_S100000x64_1_0_0_1_n_n.rhsNonContracting from List.mem_singleton.mpr rfl)]
  rfl

/-- The first product at entry `(r, c)`: the sum over the 256 contracted positions of the products. -/
theorem dot1_apply (l : FVec Ideal S100000x256 .f32) (w : FVec Ideal S256x64 .f32) (r : Fin 100000) (c : Fin 64) :
    Host.dotGeneral (F := Ideal) dot_S100000x256_S256x64_S100000x64_1_0_0_1_n_n none l w (ix2 r c) = ∑ k : Fin 256, l (ix2 r k) * w (ix2 k c) := by
  simp only [Host.dotGeneral]
  rw [Ideal.dotGeneral_apply, ← Equiv.sum_comp (contrEquiv1 dot_S100000x256_S256x64_S100000x64_1_0_0_1_n_n 256 rfl rfl).symm]
  refine Finset.sum_congr rfl fun k _ => ?_
  have hk := contrEquiv1_symm_val dot_S100000x256_S256x64_S100000x64_1_0_0_1_n_n 256 rfl rfl k
  have el : dot_S100000x256_S256x64_S100000x64_1_0_0_1_n_n.lhsIdx (ix2 r c) ((contrEquiv1 dot_S100000x256_S256x64_S100000x64_1_0_0_1_n_n 256 rfl rfl).symm k) = ix2 r k := funext fun a => Fin.ext (by
    match a with
    | ⟨0, _⟩ => exact lhs1_0 _ _
    | ⟨1, _⟩ => exact (lhs1_1 _ _ _).trans hk)
  have er : dot_S100000x256_S256x64_S100000x64_1_0_0_1_n_n.rhsIdx (ix2 r c) ((contrEquiv1 dot_S100000x256_S256x64_S100000x64_1_0_0_1_n_n 256 rfl rfl).symm k) = ix2 k c := funext fun a => Fin.ext (by
    match a with
    | ⟨0, _⟩ => exact (rhs1_0 _ _ _).trans hk
    | ⟨1, _⟩ => exact rhs1_1 _ _)
  rw [el, er]

theorem lhs2_0 (i : S100000x40.Idx) (q : dot_S100000x64_S64x40_S100000x40_1_0_0_1_n_n.contr.Idx) : (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch from List.not_mem_nil),
    dif_pos (show (0 : Fin S100000x64.rank) ∈ dot_S100000x64_S64x40_S100000x40_1_0_0_1_n_n.lhsNonContracting from List.mem_singleton.mpr rfl)]
  rfl
theorem lhs2_1 (i : S100000x40.Idx) (q : dot_S100000x64_S64x40_S100000x40_1_0_0_1_n_n.contr.Idx) (h : 0 < dot_S100000x64_S64x40_S100000x40_1_0_0_1_n_n.contr.rank) :
    (dot_S100000x64_S64x40_S100000x40_1_0_0_1_n_n.lhsIdx i q 1).val = (q ⟨0, h⟩).val :=
  dot_S100000x64_S64x40_S100000x40_1_0_0_1_n_n.lhsIdx_val_of_single rfl i q
theorem rhs2_0 (i : S100000x40.Idx) (q : dot_S100000x64_S64x40_S100000x40_1_0_0_1_n_n.contr.Idx) (h : 0 < dot_S100000x64_S64x40_S100000x40_1_0_0_1_n_n.contr.rank) :
    (dot_S100000x64_S64x40_S100000x40_1_0_0_1_n_n.rhsIdx i q 0).val = (q ⟨0, h⟩).val :=
  dot_S100000x64_S64x40_S100000x40_1_0_0_1_n_n.rhsIdx_val_of_single rfl i q
theorem rhs2_1 (i : S100000x40.Idx) (q : dot_S100000x64_S64x40_S100000x40_1_0_0_1_n_n.contr.Idx) : (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch from List.not_mem_nil),
    dif_pos (show (1 : Fin S64x40.rank) ∈ dot_S100000x64_S64x40_S100000x40_1_0_0_1_n_n.rhsNonContracting from List.mem_singleton.mpr rfl)]
  rfl

/-- The second product at entry `(r, c)`: the sum over the 64 contracted positions of the products. -/
theorem dot2_apply (l : FVec Ideal S100000x64 .f32) (w : FVec Ideal S64x40 .f32) (r : Fin 100000) (c : Fin 40) :
    Host.dotGeneral (F := Ideal) dot_S100000x64_S64x40_S100000x40_1_0_0_1_n_n none l w (ix2 r c) = ∑ k : Fin 64, l (ix2 r k) * w (ix2 k c) := by
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 r c) ((contrEquiv1 dot_S100000x64_S64x40_S100000x40_1_0_0_1_n_n 64 rfl rfl).symm k) = ix2 r k := funext fun a => Fin.ext (by
    match a with
    | ⟨0, _⟩ => exact lhs2_0 _ _
    | ⟨1, _⟩ => exact (lhs2_1 _ _ _).trans hk)
  have er : dot_S100000x64_S64x40_S100000x40_1_0_0_1_n_n.rhsIdx (ix2 r c) ((contrEquiv1 dot_S100000x64_S64x40_S100000x40_1_0_0_1_n_n 64 rfl rfl).symm k) = ix2 k c := funext fun a => Fin.ext (by
    match a with
    | ⟨0, _⟩ => exact (rhs2_0 _ _ _).trans hk
    | ⟨1, _⟩ => exact rhs2_1 _ _)
  rw [el, er]

/-- (1) The first dense stage is the specification's first stage, entry by entry. -/
theorem hidden1_eq (x0 : FVec Ideal S100000x256 .f32) (x3 : FVec Ideal S256x64 .f32) :
    hidden1 (F := Ideal) x0 x3 = fun i => G0At x0 x3 (i 0) (i 1) := by
  funext i
  obtain ⟨r, c, rfl⟩ : ∃ (r : Fin 100000) (c : Fin 64), i = ix2 r c := ⟨i 0, i 1, eq_ix2 i⟩
  unfold hidden1 G0At
  exact dot1_apply x0 x3 r c

/-! ### The bias added and the clip at zero, read at an entry -/

/-- The bias vector broadcast over the rows reads, at `(r, k)`, its entry `k`. -/
theorem bias64_apply (x4 : FVec Ideal S64 .f32) (r : Fin 100000) (k : Fin 64) :
    broadcastInDim S100000x64 ![0, 1] bcast_S1x64_S100000x64_0_1 (broadcastInDim S1x64 ![1] bcast_S64_S1x64_1 x4) (ix2 r k)
      = x4 (ix1 k) := by
  refine (broadcastInDim_apply _ bcast_S1x64_S100000x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans ?_
  exact broadcastInDim_apply _ bcast_S64_S1x64_1 x4 (ix2 (0 : Fin 1) k) (ix1 k) (fun a => match a with
    | ⟨0, _⟩ => by show k.val = if (64 : Nat) = 1 then 0 else k.val; rw [if_neg (by decide)])

/-- The clipped, biased array at `(r, k)`. -/
theorem biasRelu_apply (a : FVec Ideal S100000x64 .f32) (x4 : FVec Ideal S64 .f32) (r : Fin 100000) (k : Fin 64) :
    biasRelu (F := Ideal) a x4 (ix2 r k) = max (a (ix2 r k) + x4 (ix1 k)) (Ideal.ofBits .f32 0x00000000#32) := by
  unfold biasRelu
  show max (a (ix2 r k) + broadcastInDim S100000x64 ![0, 1] bcast_S1x64_S100000x64_0_1
      (broadcastInDim S1x64 ![1] bcast_S64_S1x64_1 x4) (ix2 r k)) (Ideal.ofBits .f32 0x00000000#32) = _
  rw [bias64_apply]

/-- (2) The second dense stage is the specification's second stage, entry by entry. -/
theorem hidden2_eq (a : FVec Ideal S100000x64 .f32) (x4 : FVec Ideal S64 .f32) (x5 : FVec Ideal S64x40 .f32)
    (b : (⟨2, ![1, 64]⟩ : Shape).Idx → EReal) (hb : ∀ k : Fin 64, b (ix2 (0 : Fin 1) k) = x4 (ix1 k)) :
    hidden2 (F := Ideal) a x4 x5 = fun i => G1At a b x5 (i 0) (i 1) := by
  funext i
  obtain ⟨r, c, rfl⟩ : ∃ (r : Fin 100000) (c : Fin 40), i = ix2 r c := ⟨i 0, i 1, eq_ix2 i⟩
  unfold hidden2 G1At
  refine (dot2_apply _ x5 r c).trans (Finset.sum_congr rfl fun k _ => ?_)
  rw [biasRelu_apply, hb]

/-! ### The log-softmax read at an entry -/

/-- The shape fact that names the index of a row with a coordinate put back on the reduced axis. -/
theorem red40 : S100000x40.Reduces [1] S100000 := by decide

/-- The index of row `r` with the coordinate `k` put back on the reduced axis is `(r, k)`. -/
theorem lift40_eq (r : Fin 100000) (k : Fin 40) : red40.lift (ix1 r) k = ix2 r k := by
  funext ax
  match ax with
  | ⟨0, _⟩ => exact Fin.ext rfl
  | ⟨1, _⟩ => exact Fin.ext rfl

/-- A `[100000]` vector broadcast to a `[100000, 1]` column reads, at `(r, u)`, the vector at `r`. -/
theorem col1_apply {α : Type} (v : S100000.Idx → α) (r : Fin 100000) (u : Fin 1) :
    broadcastInDim S100000x1 ![0] bcast_S100000_S100000x1_0 v (ix2 r u) = v (ix1 r) :=
  broadcastInDim_apply _ bcast_S100000_S100000x1_0 v (ix2 r u) (ix1 r) (fun a => match a with
    | ⟨0, _⟩ => by show r.val = if (100000 : Nat) = 1 then 0 else r.val; rw [if_neg (by decide)])

/-- A `[100000, 1]` column broadcast over `[100000, 40]` reads, at `(r, c)`, the column at row `r`. -/
theorem col40_apply {α : Type} (w : S100000x1.Idx → α) (r : Fin 100000) (c : Fin 40) :
    broadcastInDim S100000x40 ![0, 1] bcast_S100000x1_S100000x40_0_1 w (ix2 r c) = w (ix2 r (0 : Fin 1)) :=
  broadcastInDim_apply _ bcast_S100000x1_S100000x40_0_1 w (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

/-- The second bias vector broadcast over the rows reads, at `(r, j)`, its entry `j`. -/
theorem bias40_apply (x6 : FVec Ideal S40 .f32) (r : Fin 100000) (j : Fin 40) :
    broadcastInDim S100000x40 ![0, 1] bcast_S1x40_S100000x40_0_1 (broadcastInDim S1x40 ![1] bcast_S40_S1x40_1 x6) (ix2 r j)
      = x6 (ix1 j) := by
  refine (broadcastInDim_apply _ bcast_S1x40_S100000x40_0_1 _ (ix2 r j) (ix2 (0 : Fin 1) j) (fun a => match a with
    | ⟨0, _⟩ => by show 0 = if (1 : Nat) = 1 then 0 else r.val; rw [if_pos rfl]
    | ⟨1, _⟩ => by show j.val = if (40 : Nat) = 1 then 0 else j.val; rw [if_neg (by decide)])).trans ?_
  exact broadcastInDim_apply _ bcast_S40_S1x40_1 x6 (ix2 (0 : Fin 1) j) (ix1 j) (fun a => match a with
    | ⟨0, _⟩ => by show j.val = if (40 : Nat) = 1 then 0 else j.val; rw [if_neg (by decide)])

/-- The biased array at `(r, j)` is the specification's row entry. -/
theorem logits_apply (a : FVec Ideal S100000x40 .f32) (x6 : FVec Ideal S40 .f32)
    (b : (⟨2, ![1, 40]⟩ : Shape).Idx → EReal) (hb : ∀ j : Fin 40, b (ix2 (0 : Fin 1) j) = x6 (ix1 j))
    (r : Fin 100000) (j : Fin 40) : logits (F := Ideal) a x6 (ix2 r j) = logit a b r j := by
  unfold logits logit
  show a (ix2 r j) + broadcastInDim S100000x40 ![0, 1] bcast_S1x40_S100000x40_0_1
      (broadcastInDim S1x40 ![1] bcast_S40_S1x40_1 x6) (ix2 r j) = _
  rw [bias40_apply, hb]

/-- The biased array is real-valued when the array and the bias are. -/
theorem isReal_logits {a : FVec Ideal S100000x40 .f32} {x6 : FVec Ideal S40 .f32} (ha : IsReal a) (h6 : IsReal x6) :
    IsReal (logits (F := Ideal) a x6) := by
  unfold logits
  exact isReal_addf ha (isReal_broadcastInDim _ _ (isReal_broadcastInDim _ _ h6))

variable (Z : FVec Ideal S100000x40 .f32)

/-- The reference's reduction of a row by the maximum, at row `r`: the fold of `max` from minus infinity over the row. -/
theorem hostMax_apply (r : Fin 100000) :
    Host.reduce (FloatOps.maximumf (F := Ideal) (φ := .f32)) Z (constant (F := Ideal) S_ .f32 0xFF800000#32)
        reducesTo_S100000x40_S100000_d1 h_S_ (ix1 r)
      = (Finset.univ : Finset (Fin 40)).fold max (Ideal.ofBits .f32 0xFF800000#32) (fun j => Z (ix2 r j)) := by
  refine (Host.reduce_eq_fold_single _ Z _ reducesTo_S100000x40_S100000_d1 red40 h_S_ (ix1 r)).trans ?_
  have hrow : (Z ∘ red40.lift (ix1 r)) = fun j : Fin 40 => Z (ix2 r j) :=
    funext fun k => congrArg Z (lift40_eq r k)
  rw [hrow]
  rfl

/-- The splat of minus infinity read at a row. -/
theorem negInf_apply (r : Fin 100000) :
    broadcastInDim S100000 ![] bcast_S_S100000 (constant (F := Ideal) S_ .f32 0xFF800000#32) (ix1 r)
      = Ideal.ofBits .f32 0xFF800000#32 := rfl

/-- The reference's row maximum at `r` is the maximum of row `r` folded from minus infinity: the extra maximum
    against minus infinity changes nothing. -/
theorem rowMaxes_apply (r : Fin 100000) : rowMaxes (F := Ideal) Z (ix1 r) = rowMax (fun j => Z (ix2 r j)) := by
  unfold rowMaxes
  rw [maximumf_apply, hostMax_apply, negInf_apply]
  unfold rowMax
  rw [Cert.LogSoftmax.ofBits_neg_inf, Cert.LogSoftmax.max_bot_left]

/-- The host's exponential and logarithm of a vector, at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The shifted array at `(r, c)`: the entry less its row's maximum. -/
theorem shifted_apply (r : Fin 100000) (c : Fin 40) :
    shifted (F := Ideal) Z (ix2 r c) = Z (ix2 r c) - rowMax (fun j => Z (ix2 r j)) := by
  unfold shifted
  rw [subf_apply, col40_apply, col1_apply, rowMaxes_apply]

/-- The zero the row sums start from. -/
theorem zeroInit : constant (F := Ideal) S_ .f32 0x00000000#32 (Shape.Idx.first h_S_) = 0 := Ideal.ofBits_zero_f32

/-- The column of logarithms at `(r, u)`: the logarithm of row `r`'s sum of exponentials of the shifted entries. -/
theorem logSums_apply (r : Fin 100000) (u : Fin 1) :
    logSums (F := Ideal) Z (ix2 r u)
      = Ideal.log (∑ k : Fin 40, Ideal.exp (Z (ix2 r k) - rowMax (fun j => Z (ix2 r j)))) := by
  unfold logSums
  rw [hostLog_apply, col1_apply]
  simp only [Host.reduceAdd, Ideal.hostReduceAdd_def]
  rw [Ideal.hostReduceAdd_single reducesTo_S100000x40_S100000_d1 red40, zeroInit, zero_add]
  refine congrArg Ideal.log (Finset.sum_congr rfl fun k _ => ?_)
  rw [lift40_eq r k, hostExp_apply]
  exact congrArg Ideal.exp (shifted_apply Z r k)

/-- The reference's log-softmax at `(r, c)`: `(z - m) - log S`. -/
theorem logSoftmax_apply (r : Fin 100000) (c : Fin 40) :
    logSoftmax (F := Ideal) Z (ix2 r c)
      = (Z (ix2 r c) - rowMax (fun j => Z (ix2 r j)))
        - Ideal.log (∑ k : Fin 40, Ideal.exp (Z (ix2 r k) - rowMax (fun j => Z (ix2 r j)))) := by
  unfold logSoftmax
  rw [subf_apply, col40_apply, shifted_apply, logSums_apply]

/-- The maximum of a row of real numbers is a real number. -/
theorem rowMax_real (z : Fin 40 → EReal) (hz : ∀ k, ∃ q : ℝ, z k = q) : ∃ q : ℝ, rowMax z = q := by
  unfold rowMax
  rw [Cert.LogSoftmax.ofBits_neg_inf]
  exact Cert.LogSoftmax.fold_max_real_40 z hz

/-- On a real-valued array the reference's `(z - m) - log S` is the specification's `z - (m + log S)`. -/
theorem logSoftmax_eq_lsmRow (hZ : IsReal Z) (r : Fin 100000) (c : Fin 40) :
    logSoftmax (F := Ideal) Z (ix2 r c) = lsmRow (fun j => Z (ix2 r j)) c := by
  rw [logSoftmax_apply]
  unfold lsmRow
  show _ = Z (ix2 r c) - (rowMax (fun j => Z (ix2 r j))
      + Ideal.log (∑ j : Fin 40, Ideal.exp (Z (ix2 r j) - rowMax (fun j => Z (ix2 r j)))))
  obtain ⟨m, hm⟩ := rowMax_real (fun j => Z (ix2 r j)) (fun k => hZ (ix2 r k))
  obtain ⟨z, hz⟩ := hZ (ix2 r c)
  rw [hm, hz]
  exact (Cert.LogSoftmax.sub_add_eq_sub_sub_of_real z m _).symm

/-- (3) The reference's log-softmax of the biased array is the specification's third stage, entry by entry. -/
theorem logSoftmax_eq (a : FVec Ideal S100000x40 .f32) (x6 : FVec Ideal S40 .f32)
    (b : (⟨2, ![1, 40]⟩ : Shape).Idx → EReal) (hb : ∀ j : Fin 40, b (ix2 (0 : Fin 1) j) = x6 (ix1 j))
    (ha : IsReal a) (h6 : IsReal x6) :
    logSoftmax (F := Ideal) (logits a x6) = fun i => G2At a b (i 0) (i 1) := by
  funext i
  obtain ⟨r, c, rfl⟩ : ∃ (r : Fin 100000) (c : Fin 40), i = ix2 r c := ⟨i 0, i 1, eq_ix2 i⟩
  rw [logSoftmax_eq_lsmRow _ (isReal_logits ha h6)]
  unfold G2At
  exact congrArg (fun z => lsmRow z c) (funext fun j => logits_apply a x6 b hb r j)

/-! ### Real-valuedness of the dense stages, and the whole reference -/

/-- (4) The first dense stage of real-valued operands is real-valued. -/
theorem isReal_hidden1 {x0 : FVec Ideal S100000x256 .f32} {x3 : FVec Ideal S256x64 .f32} (h0 : IsReal x0) (h3 : IsReal x3) :
    IsReal (hidden1 (F := Ideal) x0 x3) := by
  unfold hidden1
  exact isReal_dotGeneral _ _ h0 h3

/-- The clipped, biased array is real-valued when the array and the bias are. -/
theorem isReal_biasRelu {a : FVec Ideal S100000x64 .f32} {x4 : FVec Ideal S64 .f32} (ha : IsReal a) (h4 : IsReal x4) :
    IsReal (biasRelu (F := Ideal) a x4) := by
  unfold biasRelu
  exact isReal_maximumf (isReal_addf ha (isReal_broadcastInDim _ _ (isReal_broadcastInDim _ _ h4)))
    (isReal_broadcastInDim _ _ (isReal_constant_zero _))

/-- (4) The second dense stage of real-valued operands is real-valued. -/
theorem isReal_hidden2 {a : FVec Ideal S100000x64 .f32} {x4 : FVec Ideal S64 .f32} {x5 : FVec Ideal S64x40 .f32}
    (ha : IsReal a) (h4 : IsReal x4) (h5 : IsReal x5) : IsReal (hidden2 (F := Ideal) a x4 x5) := by
  unfold hidden2
  exact isReal_dotGeneral _ _ (isReal_biasRelu ha h4) h5

/-- (5) On real-valued inputs the whole reference is the specification's three stages composed with the two
    propagation steps, entry by entry. -/
theorem out_eq (x0 : FVec Ideal S100000x256 .f32) (x1 : IVec S2x1600000 32) (x2 : FVec Ideal S1600000 .f32)
    (x3 : FVec Ideal S256x64 .f32) (x4 : FVec Ideal S64 .f32) (x5 : FVec Ideal S64x40 .f32) (x6 : FVec Ideal S40 .f32)
    (b4 : (⟨2, ![1, 64]⟩ : Shape).Idx → EReal) (b6 : (⟨2, ![1, 40]⟩ : Shape).Idx → EReal)
    (hb4 : ∀ k : Fin 64, b4 (ix2 (0 : Fin 1) k) = x4 (ix1 k)) (hb6 : ∀ j : Fin 40, b6 (ix2 (0 : Fin 1) j) = x6 (ix1 j))
    (h0 : IsReal x0) (h2 : IsReal x2) (h3 : IsReal x3) (h4 : IsReal x4) (h5 : IsReal x5) (h6 : IsReal x6) :
    out (F := Ideal) x0 x1 x2 x3 x4 x5 x6
      = fun i => G2At (prop40 (F := Ideal) x1 x2
          (fun i => G1At (prop64 (F := Ideal) x1 x2 (fun i => G0At x0 x3 (i 0) (i 1))) b4 x5 (i 0) (i 1))) b6 (i 0) (i 1) := by
  unfold out
  have r1 : IsReal (hidden1 (F := Ideal) x0 x3) := isReal_hidden1 h0 h3
  have r2 : IsReal (prop64 (F := Ideal) x1 x2 (hidden1 (F := Ideal) x0 x3)) := isReal_prop64 x1 h2 r1
  have r3 : IsReal (hidden2 (F := Ideal) (prop64 (F := Ideal) x1 x2 (hidden1 (F := Ideal) x0 x3)) x4 x5) :=
    isReal_hidden2 r2 h4 h5
  have r4 : IsReal (prop40 (F := Ideal) x1 x2
      (hidden2 (F := Ideal) (prop64 (F := Ideal) x1 x2 (hidden1 (F := Ideal) x0 x3)) x4 x5)) := isReal_prop40 x1 h2 r3
  rw [logSoftmax_eq _ x6 b6 hb6 r4 h6, hidden2_eq _ x4 x5 b4 hb4, hidden1_eq]

end Cert.Bridge
-- ==== Proof.PreReal.lean ====
/-
  THE PRECONDITION DECODED. The predicate is the conjunction, over the six float inputs x, of
  "for all i, |x i| < +inf": a reduce by "and" from 1 of the element comparisons |x i| < +inf, the bound being the f32
  pattern 0x7F800000 broadcast from a scalar. At the extended reals |a| = max a (-a), the pattern denotes the top
  element, and max a (-a) < top says that a is neither infinity: a is a real number. So the predicate being 1 says
  that every entry of every float input is real.
-/
import proofs.«122044_j11776800326009_2_alg».proof.Pre_finite_inputs
import proofs.«122044_j11776800326009_2_alg».proof.Proof.Gen.Pre_finite_inputs
import proofs.«122044_j11776800326009_2_alg».proof.Proof.LibRealDef
import Idealize.ShloMosaic.Lib.ReduceAll
import Idealize.ShloMosaic.Lib.ValueIdx

noncomputable section

namespace Cert.PreReal

open Idealize.ShloMosaic Cert.RealValued Cert.Pre_finite_inputs

/-- The rank-0 shape has one index. -/
instance : Subsingleton S_.Idx := ⟨fun a b => funext fun d => d.elim0⟩

/-- The f32 pattern 0x7F800000 denotes +infinity. -/
theorem ofBits_inf : Ideal.ofBits .f32 0x7F800000#32 = (⊤ : EReal) := by simp [Ideal.ofBits, Ideal.ieee]

/-- On one value: |a| < +inf says that a is a real number. -/
theorem real_of_abs_lt_inf (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max (a : EReal) (-(a : EReal))) (Ideal.ofBits .f32 0x7F800000#32) = 1#1 := h
  rw [ofBits_inf] at h'
  unfold Ideal.cmp at h'
  have hlt : max (a : EReal) (-(a : EReal)) < ⊤ := by
    by_contra hn
    simp [hn] at h'
  rw [max_lt_iff] at hlt
  induction a using EReal.rec with
  | bot => simp at hlt
  | coe r => exact ⟨r, rfl⟩
  | top => simp at hlt

/-- The reduce by "and" of the comparisons |x i| < +inf, along all the axes of any shape, being 1 says that x is
    real-valued. -/
theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
        (constantI S_ 1 1#1) hr hu ValueIdx.ix0 = 1#1) :
    IsReal x := by
  intro i
  have e := Host.reduce_andi_all _ _ hr hu ValueIdx.ix0 h i
  exact real_of_abs_lt_inf (x i) e

/-- THE PRECONDITION DECODED: the predicate being 1 says that each of the six float inputs is real-valued. -/
theorem real_of_pre [hP : Cert.Pre_finite_inputs.Facts] (x0 : FVec Ideal S100000x256 .f32) (x1 : IVec S2x1600000 32)
    (x2 : FVec Ideal S1600000 .f32) (x3 : FVec Ideal S256x64 .f32) (x4 : FVec Ideal S64 .f32)
    (x5 : FVec Ideal S64x40 .f32) (x6 : FVec Ideal S40 .f32)
    (h : Cert.Pre_finite_inputs.fn (F := Ideal) x0 x1 x2 x3 x4 x5 x6 = fun _ => 1#1) :
    IsReal x0 ∧ IsReal x2 ∧ IsReal x3 ∧ IsReal x4 ∧ IsReal x5 ∧ IsReal x6 := by
  have e := congrFun h ValueIdx.ix0
  unfold Cert.Pre_finite_inputs.fn Cert.Pre_finite_inputs.fn_part1 at e
  dsimp only at e
  simp only [andi, IntOp.andi_eq_one] at e
  obtain ⟨⟨⟨⟨⟨h0, h2⟩, h3⟩, h4⟩, h5⟩, h6⟩ := e
  exact ⟨isReal_of_all x0 _ _ _ h0, isReal_of_all x2 _ _ _ h2, isReal_of_all x3 _ _ _ h3, isReal_of_all x4 _ _ _ h4,
    isReal_of_all x5 _ _ _ h5, isReal_of_all x6 _ _ _ h6⟩

end Cert.PreReal

end
-- ==== Proof.lean ====
/-
  A two-layer graph convolution with a final log-softmax: a kernel of three grid launches (a matrix product; bias,
  clipping at zero and a matrix product; bias and a row-wise log-softmax) among host operations (the symmetric
  normalisation of the graph with self-loops and two propagation steps), against the plain reference.

  On the extended reals both programs apply the same host operations to the same arrays, and the dense stages agree
  entry by entry: a matrix product computed block of rows by block of rows is the matrix product, and a bias row added
  block by block is the bias added. They differ in one place. The kernel ends with  z − (m + log S)  and the reference
  with  (z − m) − log S,  where z is a row of logits, m its maximum and S the sum of the exponentials of z − m. The two
  agree when the row is real-valued — not in general: at m = +∞ they differ — and the rows are real-valued because the
  inputs are finite: sums, products and maxima of reals are real, 1/√ is taken of max(degree, a positive number) only,
  and the selected value is that or zero. So the precondition is used, and only there.

  Both frames of the kernel are the generated ones; the reference's frame is its run with the result dropped; the ideal
  pass rewrote nothing, so there is nothing to preserve.
-/
import proofs.«122044_j11776800326009_2_alg».proof.Defs
import proofs.«122044_j11776800326009_2_alg».proof.Proof.Gen.Kernel
import proofs.«122044_j11776800326009_2_alg».proof.Proof.Gen.Kernel.Skeleton
import proofs.«122044_j11776800326009_2_alg».proof.Proof.Gen.Kernel.Launch
import proofs.«122044_j11776800326009_2_alg».proof.Proof.Gen.Kernel.Points
import proofs.«122044_j11776800326009_2_alg».proof.Proof.Gen.Kernel.Frame
import proofs.«122044_j11776800326009_2_alg».proof.Proof.Gen.KernelIdeal
import proofs.«122044_j11776800326009_2_alg».proof.Proof.Gen.KernelIdeal.Skeleton
import proofs.«122044_j11776800326009_2_alg».proof.Proof.Gen.KernelIdeal.Launch
import proofs.«122044_j11776800326009_2_alg».proof.Proof.Gen.KernelIdeal.Points
import proofs.«122044_j11776800326009_2_alg».proof.Proof.Gen.KernelIdeal.Frame
import proofs.«122044_j11776800326009_2_alg».proof.Proof.Gen.ReferenceIdeal
import proofs.«122044_j11776800326009_2_alg».proof.Proof.Gen.Pre_finite_inputs
import proofs.«122044_j11776800326009_2_alg».proof.Proof.KValue
import proofs.«122044_j11776800326009_2_alg».proof.Proof.RefRun
import proofs.«122044_j11776800326009_2_alg».proof.Proof.Bridge
import proofs.«122044_j11776800326009_2_alg».proof.Proof.PreReal
import Idealize.ShloMosaic.Lib.ValueLayout
import Idealize.ShloMosaic.Adequacy
import Idealize.ShloMosaic.Init

set_option maxRecDepth 16384

noncomputable section

namespace Cert.Proof

open Idealize.ShloMosaic Idealize.SL.Sem Idealize.ShloMosaic.ValueIdx

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments, both programs end with the same result array: the kernel's three launches
    and the reference's dense stages are the same functions of the same arrays, and the two forms of the log-softmax
    agree on the real-valued logits that finite inputs give. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  obtain ⟨h0, h2, h3, h4, h5, h6⟩ := Cert.PreReal.real_of_pre _ _ _ _ _ _ _ (hpre c)
  exact Cert.Bridge.out_eq _ _ _ _ _ _ _
    (shapeCast Cert.KernelIdeal.S1x64 (m ((c.tc : Thread Cert.KernelIdeal.nD Cert.KernelIdeal.τ).loc Cert.KernelIdeal.main_arg4)) Cert.KernelIdeal.Facts₀.shapeCasts_S64_S1x64)
    (shapeCast Cert.KernelIdeal.S1x40 (m ((c.tc : Thread Cert.KernelIdeal.nD Cert.KernelIdeal.τ).loc Cert.KernelIdeal.main_arg6)) Cert.KernelIdeal.Facts₀.shapeCasts_S40_S1x40)
    (fun k => shapeCast_a_1a_apply _ _ 0 k) (fun j => shapeCast_a_1a_apply _ _ 0 j) h0 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
